-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x16 : Shape := ⟨4, ![16, 256, 256, 16]⟩
abbrev S128x48 : Shape := ⟨2, ![128, 48]⟩
abbrev S16x128 : Shape := ⟨2, ![16, 128]⟩
abbrev S_ : Shape := ⟨0, ![]⟩

class Facts : Prop where
  bcast_S_S16x256x256x16 : S_.BroadcastsInDim S16x256x256x16 (![] : Fin 0 → Fin S16x256x256x16.rank)
  reducesTo_S16x256x256x16_S_d0_1_2_3 : S16x256x256x16.ReducesTo [0, 1, 2, 3] S_
  h_S_ : 0 < S_.numel
  bcast_S_S128x48 : S_.BroadcastsInDim S128x48 (![] : Fin 0 → Fin S128x48.rank)
  reducesTo_S128x48_S_d0_1 : S128x48.ReducesTo [0, 1] S_
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S16x256x256x16 .f32) (main_arg1 : FVec F S128x48 .f32) (main_arg2 : FVec F S16x128 .f32) : IVec S_ 1 :=
  let main_v0 : FVec F S16x256x256x16 .f32 := Host.absf main_arg0
  let main_cst : FVec F S_ .f32 := constant S_ .f32 0x7F800000#32
  let main_v1 : FVec F S16x256x256x16 .f32 := broadcastInDim S16x256x256x16 ![] bcast_S_S16x256x256x16 main_cst
  let main_v2 : IVec S16x256x256x16 1 := cmpf .olt main_v0 main_v1
  let main_c : IVec S_ 1 := constantI S_ 1 1#1
  let main_v3 : IVec S_ 1 := (fun x v => Host.reduce IntOp.andi x v reducesTo_S16x256x256x16_S_d0_1_2_3 h_S_) main_v2 main_c
  let main_v4 : FVec F S128x48 .f32 := Host.absf main_arg1
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  main_v13
-- ==== Kernel.lean ====
abbrev S16x256x256x16 : Shape := ⟨4, ![16, 256, 256, 16]⟩
abbrev S128x48 : Shape := ⟨2, ![128, 48]⟩
abbrev S16x128 : Shape := ⟨2, ![16, 128]⟩
abbrev S128x16 : Shape := ⟨2, ![128, 16]⟩
abbrev S_ : Shape := ⟨0, ![]⟩
abbrev S144x128 : Shape := ⟨2, ![144, 128]⟩
abbrev S1x32x256x16 : Shape := ⟨4, ![1, 32, 256, 16]⟩
abbrev S1x1x256x16 : Shape := ⟨4, ![1, 1, 256, 16]⟩
abbrev S32x256x16 : Shape := ⟨3, ![32, 256, 16]⟩
abbrev S1x256x16 : Shape := ⟨3, ![1, 256, 16]⟩
abbrev S31x256x16 : Shape := ⟨3, ![31, 256, 16]⟩
abbrev S32x256x144 : Shape := ⟨3, ![32, 256, 144]⟩
abbrev S8192x144 : Shape := ⟨2, ![8192, 144]⟩
abbrev S8192x128 : Shape := ⟨2, ![8192, 128]⟩
abbrev S8192x16 : Shape := ⟨2, ![8192, 16]⟩

abbrev nBuf : Space → Nat
  | .hbm => 113
  | .vmem => 10
  | .smem => 0
  | _ => 0

abbrev bufTy : (tb : Table) → Fin (tcTables nBuf tb) → BufTy
  | .hbm, ⟨0, _⟩ => ⟨S16x256x256x16, .f32⟩
  | .hbm, ⟨1, _⟩ => ⟨S128x48, .f32⟩
  | .hbm, ⟨2, _⟩ => ⟨S16x128, .f32⟩
  | .hbm, ⟨3, _⟩ => ⟨S128x16, .f32⟩
  | .hbm, ⟨4, _⟩ => ⟨S128x16, .f32⟩
  | .hbm, ⟨5, _⟩ => ⟨S128x16, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S16x128, .f32⟩
  | .hbm, ⟨20, _⟩ => ⟨S_, .f32⟩
  | .hbm, ⟨21, _⟩ => ⟨S16x128, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S_, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S_, .f32⟩
  | .hbm, ⟨43, _⟩ => ⟨S16x128, .f32⟩
  | .hbm, ⟨44, _⟩ => ⟨S16x128, .f32⟩
  | .hbm, ⟨45, _⟩ => ⟨S_, .f32⟩
  | .hbm, ⟨46, _⟩ => ⟨S16x128, .f32⟩
  | .hbm, ⟨47, _⟩ => ⟨S16x128, .f32⟩
  | .hbm, ⟨48, _⟩ => ⟨S16x128, .f32⟩
  | .hbm, ⟨49, _⟩ => ⟨S_, .f32⟩
  | .hbm, ⟨50, _⟩ => ⟨S16x128, .f32⟩
  | .hbm, ⟨51, _⟩ => ⟨S16x128, .f32⟩
  | .hbm, ⟨52, _⟩ => ⟨S16x128, .f32⟩
  | .hbm, ⟨53, _⟩ => ⟨S_, .f32⟩
  | .hbm, ⟨54, _⟩ => ⟨S16x128, .f32⟩
  | .hbm, ⟨55, _⟩ => ⟨S16x128, .f32⟩
  | .hbm, ⟨56, _⟩ => ⟨S_, .f32⟩
  | .hbm, ⟨57, _⟩ => ⟨S16x128, .f32⟩
  | .hbm, ⟨58, _⟩ => ⟨S16x128, .f32⟩
  | .hbm, ⟨59, _⟩ => ⟨S16x128, .f32⟩
  | .hbm, ⟨60, _⟩ => ⟨S_, .f32⟩
  | .hbm, ⟨61, _⟩ => ⟨S16x128, .f32⟩
  | .hbm, ⟨62, _⟩ => ⟨S16x128, .f32⟩
  | .hbm, ⟨63, _⟩ => ⟨S16x128, .f32⟩
  | .hbm, ⟨64, _⟩ => ⟨S_, .f32⟩
  | .hbm, ⟨65, _⟩ => ⟨S16x128, .f32⟩
  | .hbm, ⟨66, _⟩ => ⟨S16x128, .f32⟩
  | .hbm, ⟨67, _⟩ => ⟨S_, .f32⟩
  | .hbm, ⟨68, _⟩ => ⟨S16x128, .f32⟩
  | .hbm, ⟨69, _⟩ => ⟨S16x128, .f32⟩
  | .hbm, ⟨70, _⟩ => ⟨S16x128, .f32⟩
  | .hbm, ⟨71, _⟩ => ⟨S_, .f32⟩
  | .hbm, ⟨72, _⟩ => ⟨S16x128, .f32⟩
  | .hbm, ⟨73, _⟩ => ⟨S16x128, .f32⟩
  | .hbm, ⟨74, _⟩ => ⟨S16x128, .f32⟩
  | .hbm, ⟨75, _⟩ => ⟨S_, .f32⟩
  | .hbm, ⟨76, _⟩ => ⟨S16x128, .f32⟩
  | .hbm, ⟨77, _⟩ => ⟨S16x128, .f32⟩
  | .hbm, ⟨78, _⟩ => ⟨S_, .f32⟩
  | .hbm, ⟨79, _⟩ => ⟨S16x128, .f32⟩
  | .hbm, ⟨80, _⟩ => ⟨S16x128, .f32⟩
  | .hbm, ⟨81, _⟩ => ⟨S16x128, .f32⟩
  | .hbm, ⟨82, _⟩ => ⟨S_, .f32⟩
  | .hbm, ⟨83, _⟩ => ⟨S16x128, .f32⟩
  | .hbm, ⟨84, _⟩ => ⟨S16x128, .f32⟩
  | .hbm, ⟨85, _⟩ => ⟨S16x128, .f32⟩
  | .hbm, ⟨86, _⟩ => ⟨S_, .f32⟩
  | .hbm, ⟨87, _⟩ => ⟨S16x128, .f32⟩
  | .hbm, ⟨88, _⟩ => ⟨S16x128, .f32⟩
  | .hbm, ⟨89, _⟩ => ⟨S_, .f32⟩
  | .hbm, ⟨90, _⟩ => ⟨S16x128, .f32⟩
  | .hbm, ⟨91, _⟩ => ⟨S16x128, .f32⟩
  | .hbm, ⟨92, _⟩ => ⟨S16x128, .f32⟩
  | .hbm, ⟨93, _⟩ => ⟨S_, .f32⟩
  | .hbm, ⟨94, _⟩ => ⟨S16x128, .f32⟩
  | .hbm, ⟨95, _⟩ => ⟨S16x128, .f32⟩
  | .hbm, ⟨96, _⟩ => ⟨S16x128, .f32⟩
  | .hbm, ⟨97, _⟩ => ⟨S_, .f32⟩
  | .hbm, ⟨98, _⟩ => ⟨S16x128, .f32⟩
  | .hbm, ⟨99, _⟩ => ⟨S16x128, .f32⟩
  | .hbm, ⟨100, _⟩ => ⟨S_, .f32⟩
  | .hbm, ⟨101, _⟩ => ⟨S16x128, .f32⟩
  | .hbm, ⟨102, _⟩ => ⟨S16x128, .f32⟩
  | .hbm, ⟨103, _⟩ => ⟨S16x128, .f32⟩
  | .hbm, ⟨104, _⟩ => ⟨S_, .f32⟩
  | .hbm, ⟨105, _⟩ => ⟨S16x128, .f32⟩
  | .hbm, ⟨106, _⟩ => ⟨S16x128, .f32⟩
  | .hbm, ⟨107, _⟩ => ⟨S16x128, .f32⟩
  | .hbm, ⟨108, _⟩ => ⟨S144x128, .f32⟩
  | .hbm, ⟨109, _⟩ => ⟨S144x128, .bf16⟩
  | .hbm, ⟨110, _⟩ => ⟨S128x16, .f32⟩
  | .hbm, ⟨111, _⟩ => ⟨S128x16, .bf16⟩
  | .hbm, ⟨112, _⟩ => ⟨S16x256x256x16, .f32⟩
  | .local _ .vmem, ⟨0, _⟩ => ⟨S1x32x256x16, .f32⟩
  | .local _ .vmem, ⟨1, _⟩ => ⟨S1x32x256x16, .f32⟩
  | .local _ .vmem, ⟨2, _⟩ => ⟨S1x1x256x16, .f32⟩
  | .local _ .vmem, ⟨3, _⟩ => ⟨S1x1x256x16, .f32⟩
  | .local _ .vmem, ⟨4, _⟩ => ⟨S1x1x256x16, .f32⟩
  | .local _ .vmem, ⟨5, _⟩ => ⟨S1x1x256x16, .f32⟩
  | .local _ .vmem, ⟨6, _⟩ => ⟨S144x128, .bf16⟩
  | .local _ .vmem, ⟨7, _⟩ => ⟨S128x16, .bf16⟩
  | .local _ .vmem, ⟨8, _⟩ => ⟨S1x32x256x16, .f32⟩
  | .local _ .vmem, ⟨9, _⟩ => ⟨S1x32x256x16, .f32⟩
  | _, _ => ⟨S16x256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_cst_12 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_19 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_20 : Ref sig .tc := ⟨.hbm, 86, rfl⟩
abbrev main_v62 : Ref sig .tc := ⟨.hbm, 87, rfl⟩
abbrev main_v63 : Ref sig .tc := ⟨.hbm, 88, rfl⟩
abbrev main_cst_21 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_22 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_23 : Ref sig .tc := ⟨.hbm, 97, rfl⟩
abbrev main_v70 : Ref sig .tc := ⟨.hbm, 98, rfl⟩
abbrev main_v71 : Ref sig .tc := ⟨.hbm, 99, rfl⟩
abbrev main_cst_24 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_25 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c32_i32 : BitVec 32 := 32#32
  let v1 : BitVec 32 := Scalar.muli arg1 c32_i32
  let c1_i32 : BitVec 32 := 1#32
  let v2 : BitVec 32 := Scalar.subi v1 c1_i32
  let c255_i32 : BitVec 32 := 255#32
  let v3 : BitVec 32 := Scalar.select v0 c255_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c1_i32 : BitVec 32 := 1#32
  let v1 : BitVec 32 := Scalar.addi arg1 c1_i32
  let c32_i32 : BitVec 32 := 32#32
  let v2 : BitVec 32 := Scalar.muli v1 c32_i32
  let c0_i32 : BitVec 32 := 0#32
  let v3 : BitVec 32 := Scalar.select v0 c0_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S144x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S128x48_S128x16_0_0 : S128x48.Slices ![0, 0] S128x16
  slices_S128x48_S128x16_0_16 : S128x48.Slices ![0, 16] S128x16
  slices_S128x48_S128x16_0_32 : S128x48.Slices ![0, 32] S128x16
  transposes_S128x16_S16x128_1_0 : S128x16.Transposes [1, 0] S16x128
  bcast_S_S16x128 : S_.BroadcastsInDim S16x128 (![] : Fin 0 → Fin S16x128.rank)
  concatenates_S16x128_S16x128_S16x128_S16x128_S16x128_S16x128_S16x128_S16x128_S16x128_S144x128_d0 : Shape.Concatenates [S16x128, S16x128, S16x128, S16x128, S16x128, S16x128, S16x128, S16x128, S16x128] S144x128 0
  bitsLt_bf16_f32 : FTy.bits .bf16 < FTy.bits .f32
  transposes_S16x128_S128x16_1_0 : S16x128.Transposes [1, 0] S128x16
  inb_S1x32x256x16_S1x32x256x16_0_0_0_0 : ∀ a, (![0, 0, 0, 0] : Fin 4 → Nat) a + S1x32x256x16.size a ≤ S1x32x256x16.size a
  h_S1x32x256x16 : 0 < S1x32x256x16.numel
  shapeCasts_S1x32x256x16_S32x256x16 : S1x32x256x16.ShapeCasts S32x256x16
  inb_S1x1x256x16_S1x1x256x16_0_0_0_0 : ∀ a, (![0, 0, 0, 0] : Fin 4 → Nat) a + S1x1x256x16.size a ≤ S1x1x256x16.size a
  h_S1x1x256x16 : 0 < S1x1x256x16.numel
  shapeCasts_S1x1x256x16_S1x256x16 : S1x1x256x16.ShapeCasts S1x256x16
  slices_S32x256x16_o0_0_0_S31x256x16 : S32x256x16.Slices ![0, 0, 0] S31x256x16
  concatenates_S1x256x16_S31x256x16_S32x256x16_d0 : Shape.Concatenates [S1x256x16, S31x256x16] S32x256x16 0
  slices_S32x256x16_o1_0_0_S31x256x16 : S32x256x16.Slices ![1, 0, 0] S31x256x16
  concatenates_S31x256x16_S1x256x16_S32x256x16_d0 : Shape.Concatenates [S31x256x16, S1x256x16] S32x256x16 0
  rotates_S32x256x16_d1 : S32x256x16.Rotates 1 none
  concatenates_S32x256x16_S32x256x16_S32x256x16_S32x256x16_S32x256x16_S32x256x16_S32x256x16_S32x256x16_S32x256x16_S32x256x144_d2 : Shape.Concatenates [S32x256x16, S32x256x16, S32x256x16, S32x256x16, S32x256x16, S32x256x16, S32x256x16, S32x256x16, S32x256x16] S32x256x144 2
  shapeCasts_S32x256x144_S8192x144 : S32x256x144.ShapeCasts S8192x144
  inb_S144x128_S144x128_0_0 : ∀ a, (![0, 0] : Fin 2 → Nat) a + S144x128.size a ≤ S144x128.size a
  h_S144x128 : 0 < S144x128.numel
  shapeCasts_S144x128_S144x128 : S144x128.ShapeCasts S144x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  shapeCasts_S8192x16_S32x256x16 : S8192x16.ShapeCasts S32x256x16
  shapeCasts_S32x256x16_S1x32x256x16 : S32x256x16.ShapeCasts S1x32x256x16
  dot_S8192x144_S144x128_S8192x128_1_0_0_1_n_n_wf : DotDims.WF S8192x144 S144x128 S8192x128 [1] [0] [0] [1] [] []
  dot_S8192x128_S128x16_S8192x16_1_0_0_1_n_n_wf : DotDims.WF S8192x128 S128x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x16.size a ≤ S16x256x256x16.size a
  hwx0_0 : ∀ i : grid0.Coords, EltTy.bits .f32 = 32 ∨ (Rect.block (s := S16x256x256x16) S1x32x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x16.size a ≤ S16x256x256x16.size a
  hwx0_1 : ∀ i : grid0.Coords, EltTy.bits .f32 = 32 ∨ (Rect.block (s := S16x256x256x16) S1x1x256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x16.size a ≤ S16x256x256x16.size a
  hwx0_2 : ∀ i : grid0.Coords, EltTy.bits .f32 = 32 ∨ (Rect.block (s := S16x256x256x16) S1x1x256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S144x128.size a ≤ S144x128.size a
  hwx0_3 : ∀ i : grid0.Coords, EltTy.bits .bf16 = 32 ∨ (Rect.block (s := S144x128) S144x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .bf16 = 32 ∨ (Rect.block (s := S128x16) S128x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x256x16.size a ≤ S16x256x256x16.size a
  hwx0_5 : ∀ i : grid0.Coords, EltTy.bits .f32 = 32 ∨ (Rect.block (s := S16x256x256x16) S1x32x256x16.size (cc0_transform_5 i) (hinb0_5 i)).WholeWords (EltTy.packing .f32)

variable [Facts₀]

def dot_S8192x144_S144x128_S8192x128_1_0_0_1_n_n : DotDims S8192x144 S144x128 S8192x128 where
  lhsContracting := [1]
  rhsContracting := [0]
  lhsNonContracting := [0]
  rhsNonContracting := [1]
  lhsBatch := []
  rhsBatch := []
  wf := dot_S8192x144_S144x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

abbrev win0_0 : Pipeline.Window sig grid0 :=
  Pipeline.Window.ofSpec (Memref.whole main_arg0) S1x32x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v79) S144x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S128x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x32x256x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x256x16 : Shape := ⟨4, ![16, 256, 256, 16]⟩
abbrev S128x48 : Shape := ⟨2, ![128, 48]⟩
abbrev S16x128 : Shape := ⟨2, ![16, 128]⟩
abbrev S16x1x256x16 : Shape := ⟨4, ![16, 1, 256, 16]⟩
abbrev S16x255x256x16 : Shape := ⟨4, ![16, 255, 256, 16]⟩
abbrev S16x256x255x16 : Shape := ⟨4, ![16, 256, 255, 16]⟩
abbrev S16x256x1x16 : Shape := ⟨4, ![16, 256, 1, 16]⟩
abbrev S16x0x256x16 : Shape := ⟨4, ![16, 0, 256, 16]⟩
abbrev S_ : Shape := ⟨0, ![]⟩
abbrev S16x256x0x16 : Shape := ⟨4, ![16, 256, 0, 16]⟩
abbrev S16x256x256x48 : Shape := ⟨4, ![16, 256, 256, 48]⟩
abbrev S16x256x256x128 : Shape := ⟨4, ![16, 256, 256, 128]⟩

abbrev nBuf : Space → Nat
  | .hbm => 97
  | .vmem => 0
  | .smem => 0
  | _ => 0

abbrev bufTy : (tb : Table) → Fin (tcTables nBuf tb) → BufTy
  | .hbm, ⟨0, _⟩ => ⟨S16x256x256x16, .f32⟩
  | .hbm, ⟨1, _⟩ => ⟨S128x48, .f32⟩
  | .hbm, ⟨2, _⟩ => ⟨S16x128, .f32⟩
  | .hbm, ⟨3, _⟩ => ⟨S16x1x256x16, .f32⟩
  | .hbm, ⟨4, _⟩ => ⟨S16x255x256x16, .f32⟩
  | .hbm, ⟨5, _⟩ => ⟨S16x256x256x16, .f32⟩
  | .hbm, ⟨6, _⟩ => ⟨S16x256x255x16, .f32⟩
  | .hbm, ⟨7, _⟩ => ⟨S16x256x1x16, .f32⟩
  | .hbm, ⟨8, _⟩ => ⟨S16x256x256x16, .f32⟩
  | .hbm, ⟨9, _⟩ => ⟨S16x1x256x16, .f32⟩
  | .hbm, ⟨10, _⟩ => ⟨S16x255x256x16, .f32⟩
  | .hbm, ⟨11, _⟩ => ⟨S16x256x256x16, .f32⟩
  | .hbm, ⟨12, _⟩ => ⟨S16x256x1x16, .f32⟩
  | .hbm, ⟨13, _⟩ => ⟨S16x256x255x16, .f32⟩
  | .hbm, ⟨14, _⟩ => ⟨S16x256x256x16, .f32⟩
  | .hbm, ⟨15, _⟩ => ⟨S16x256x256x16, .f32⟩
  | .hbm, ⟨16, _⟩ => ⟨S16x256x256x16, .f32⟩
  | .hbm, ⟨17, _⟩ => ⟨S16x0x256x16, .f32⟩
  | .hbm, ⟨18, _⟩ => ⟨S16x256x256x16, .f32⟩
  | .hbm, ⟨19, _⟩ => ⟨S16x256x255x16, .f32⟩
  | .hbm, ⟨20, _⟩ => ⟨S16x256x1x16, .f32⟩
  | .hbm, ⟨21, _⟩ => ⟨S16x256x256x16, .f32⟩
  | .hbm, ⟨22, _⟩ => ⟨S16x256x256x16, .f32⟩
  | .hbm, ⟨23, _⟩ => ⟨S16x0x256x16, .f32⟩
  | .hbm, ⟨24, _⟩ => ⟨S16x256x256x16, .f32⟩
  | .hbm, ⟨25, _⟩ => ⟨S16x256x1x16, .f32⟩
  | .hbm, ⟨26, _⟩ => ⟨S16x256x255x16, .f32⟩
  | .hbm, ⟨27, _⟩ => ⟨S16x256x256x16, .f32⟩
  | .hbm, ⟨28, _⟩ => ⟨S16x256x256x16, .f32⟩
  | .hbm, ⟨29, _⟩ => ⟨S_, .f32⟩
  | .hbm, ⟨30, _⟩ => ⟨S16x256x256x16, .f32⟩
  | .hbm, ⟨31, _⟩ => ⟨S16x256x256x16, .f32⟩
  | .hbm, ⟨32, _⟩ => ⟨S16x256x256x16, .f32⟩
  | .hbm, ⟨33, _⟩ => ⟨S16x255x256x16, .f32⟩
  | .hbm, ⟨34, _⟩ => ⟨S16x1x256x16, .f32⟩
  | .hbm, ⟨35, _⟩ => ⟨S16x256x256x16, .f32⟩
  | .hbm, ⟨36, _⟩ => ⟨S16x256x255x16, .f32⟩
  | .hbm, ⟨37, _⟩ => ⟨S16x256x1x16, .f32⟩
  | .hbm, ⟨38, _⟩ => ⟨S16x256x256x16, .f32⟩
  | .hbm, ⟨39, _⟩ => ⟨S16x255x256x16, .f32⟩
  | .hbm, ⟨40, _⟩ => ⟨S16x1x256x16, .f32⟩
  | .hbm, ⟨41, _⟩ => ⟨S16x256x256x16, .f32⟩
  | .hbm, ⟨42, _⟩ => ⟨S16x256x1x16, .f32⟩
  | .hbm, ⟨43, _⟩ => ⟨S16x256x255x16, .f32⟩
  | .hbm, ⟨44, _⟩ => ⟨S16x256x256x16, .f32⟩
  | .hbm, ⟨45, _⟩ => ⟨S16x256x256x16, .f32⟩
  | .hbm, ⟨46, _⟩ => ⟨S16x256x256x16, .f32⟩
  | .hbm, ⟨47, _⟩ => ⟨S16x255x256x16, .f32⟩
  | .hbm, ⟨48, _⟩ => ⟨S16x1x256x16, .f32⟩
  | .hbm, ⟨49, _⟩ => ⟨S16x256x256x16, .f32⟩
  | .hbm, ⟨50, _⟩ => ⟨S16x256x1x16, .f32⟩
  | .hbm, ⟨51, _⟩ => ⟨S16x256x255x16, .f32⟩
  | .hbm, ⟨52, _⟩ => ⟨S16x256x256x16, .f32⟩
  | .hbm, ⟨53, _⟩ => ⟨S16x1x256x16, .f32⟩
  | .hbm, ⟨54, _⟩ => ⟨S16x255x256x16, .f32⟩
  | .hbm, ⟨55, _⟩ => ⟨S16x256x256x16, .f32⟩
  | .hbm, ⟨56, _⟩ => ⟨S16x256x1x16, .f32⟩
  | .hbm, ⟨57, _⟩ => ⟨S16x256x255x16, .f32⟩
  | .hbm, ⟨58, _⟩ => ⟨S16x256x256x16, .f32⟩
  | .hbm, ⟨59, _⟩ => ⟨S16x256x256x16, .f32⟩
  | .hbm, ⟨60, _⟩ => ⟨S16x255x256x16, .f32⟩
  | .hbm, ⟨61, _⟩ => ⟨S16x1x256x16, .f32⟩
  | .hbm, ⟨62, _⟩ => ⟨S16x256x256x16, .f32⟩
  | .hbm, ⟨63, _⟩ => ⟨S16x256x256x16, .f32⟩
  | .hbm, ⟨64, _⟩ => ⟨S16x256x0x16, .f32⟩
  | .hbm, ⟨65, _⟩ => ⟨S16x256x256x16, .f32⟩
  | .hbm, ⟨66, _⟩ => ⟨S16x1x256x16, .f32⟩
  | .hbm, ⟨67, _⟩ => ⟨S16x255x256x16, .f32⟩
  | .hbm, ⟨68, _⟩ => ⟨S16x256x256x16, .f32⟩
  | .hbm, ⟨69, _⟩ => ⟨S16x256x256x16, .f32⟩
  | .hbm, ⟨70, _⟩ => ⟨S16x256x0x16, .f32⟩
  | .hbm, ⟨71, _⟩ => ⟨S16x256x256x16, .f32⟩
  | .hbm, ⟨72, _⟩ => ⟨S16x256x256x16, .f32⟩
  | .hbm, ⟨73, _⟩ => ⟨S_, .f32⟩
  | .hbm, ⟨74, _⟩ => ⟨S16x256x256x16, .f32⟩
  | .hbm, ⟨75, _⟩ => ⟨S16x256x256x16, .f32⟩
  | .hbm, ⟨76, _⟩ => ⟨S16x256x256x16, .f32⟩
  | .hbm, ⟨77, _⟩ => ⟨S16x255x256x16, .f32⟩
  | .hbm, ⟨78, _⟩ => ⟨S16x1x256x16, .f32⟩
  | .hbm, ⟨79, _⟩ => ⟨S16x256x256x16, .f32⟩
  | .hbm, ⟨80, _⟩ => ⟨S16x256x255x16, .f32⟩
  | .hbm, ⟨81, _⟩ => ⟨S16x256x1x16, .f32⟩
  | .hbm, ⟨82, _⟩ => ⟨S16x256x256x16, .f32⟩
  | .hbm, ⟨83, _⟩ => ⟨S16x1x256x16, .f32⟩
  | .hbm, ⟨84, _⟩ => ⟨S16x255x256x16, .f32⟩
  | .hbm, ⟨85, _⟩ => ⟨S16x256x256x16, .f32⟩
  | .hbm, ⟨86, _⟩ => ⟨S16x256x255x16, .f32⟩
  | .hbm, ⟨87, _⟩ => ⟨S16x256x1x16, .f32⟩
  | .hbm, ⟨88, _⟩ => ⟨S16x256x256x16, .f32⟩
  | .hbm, ⟨89, _⟩ => ⟨S16x256x256x16, .f32⟩
  | .hbm, ⟨90, _⟩ => ⟨S16x256x256x16, .f32⟩
  | .hbm, ⟨91, _⟩ => ⟨S16x256x256x48, .f32⟩
  | .hbm, ⟨92, _⟩ => ⟨S16x256x256x128, .f32⟩
  | .hbm, ⟨93, _⟩ => ⟨S_, .f32⟩
  | .hbm, ⟨94, _⟩ => ⟨S16x256x256x128, .f32⟩
  | .hbm, ⟨95, _⟩ => ⟨S16x256x256x128, .f32⟩
  | .hbm, ⟨96, _⟩ => ⟨S16x256x256x16, .f32⟩
  | _, _ => ⟨S16x256x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v1 : Ref sig .tc := ⟨.hbm, 14, rfl⟩
abbrev main_v2 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v3 : Ref sig .tc := ⟨.hbm, 21, rfl⟩
abbrev main_call3_v0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v9 : Ref sig .tc := ⟨.hbm, 38, rfl⟩
abbrev main_call5_v0 : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call6_v0 : Ref sig .tc := ⟨.hbm, 47, rfl⟩
abbrev main_call6_v1 : Ref sig .tc := ⟨.hbm, 48, rfl⟩
abbrev main_call6_v2 : Ref sig .tc := ⟨.hbm, 49, rfl⟩
abbrev main_call6_v3 : Ref sig .tc := ⟨.hbm, 50, rfl⟩
abbrev main_call6_v4 : Ref sig .tc := ⟨.hbm, 51, rfl⟩
abbrev main_v13 : Ref sig .tc := ⟨.hbm, 52, rfl⟩
abbrev main_call7_v0 : Ref sig .tc := ⟨.hbm, 53, rfl⟩
abbrev main_call7_v1 : Ref sig .tc := ⟨.hbm, 54, rfl⟩
abbrev main_call7_v2 : Ref sig .tc := ⟨.hbm, 55, rfl⟩
abbrev main_call7_v3 : Ref sig .tc := ⟨.hbm, 56, rfl⟩
abbrev main_call7_v4 : Ref sig .tc := ⟨.hbm, 57, rfl⟩
abbrev main_v14 : Ref sig .tc := ⟨.hbm, 58, rfl⟩
abbrev main_v15 : Ref sig .tc := ⟨.hbm, 59, rfl⟩
abbrev main_call8_v0 : Ref sig .tc := ⟨.hbm, 60, rfl⟩
abbrev main_call8_v1 : Ref sig .tc := ⟨.hbm, 61, rfl⟩
abbrev main_call8_v2 : Ref sig .tc := ⟨.hbm, 62, rfl⟩
abbrev main_call8_v3 : Ref sig .tc := ⟨.hbm, 63, rfl⟩
abbrev main_call8_v4 : Ref sig .tc := ⟨.hbm, 64, rfl⟩
abbrev main_v16 : Ref sig .tc := ⟨.hbm, 65, rfl⟩
abbrev main_call9_v0 : Ref sig .tc := ⟨.hbm, 66, rfl⟩
abbrev main_call9_v1 : Ref sig .tc := ⟨.hbm, 67, rfl⟩
abbrev main_call9_v2 : Ref sig .tc := ⟨.hbm, 68, rfl⟩
abbrev main_call9_v3 : Ref sig .tc := ⟨.hbm, 69, rfl⟩
abbrev main_call9_v4 : Ref sig .tc := ⟨.hbm, 70, rfl⟩
abbrev main_v17 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_call10_v0 : Ref sig .tc := ⟨.hbm, 77, rfl⟩
abbrev main_call10_v1 : Ref sig .tc := ⟨.hbm, 78, rfl⟩
abbrev main_call10_v2 : Ref sig .tc := ⟨.hbm, 79, rfl⟩
abbrev main_call10_v3 : Ref sig .tc := ⟨.hbm, 80, rfl⟩
abbrev main_call10_v4 : Ref sig .tc := ⟨.hbm, 81, rfl⟩
abbrev main_v22 : Ref sig .tc := ⟨.hbm, 82, rfl⟩
abbrev main_call11_v0 : Ref sig .tc := ⟨.hbm, 83, rfl⟩
abbrev main_call11_v1 : Ref sig .tc := ⟨.hbm, 84, rfl⟩
abbrev main_call11_v2 : Ref sig .tc := ⟨.hbm, 85, rfl⟩
abbrev main_call11_v3 : Ref sig .tc := ⟨.hbm, 86, rfl⟩
abbrev main_call11_v4 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_call12_cst : Ref sig .tc := ⟨.hbm, 93, rfl⟩
abbrev main_call12_v0 : Ref sig .tc := ⟨.hbm, 94, rfl⟩
abbrev main_v28 : Ref sig .tc := ⟨.hbm, 95, rfl⟩
abbrev main_v29 : Ref sig .tc := ⟨.hbm, 96, rfl⟩

abbrev nD : Nat := 1
abbrev τ : Topo := Topo.v7x

variable {F : FTy → Type} [FloatOps F]

class Facts₀ : Prop where
  slices_S16x256x256x16_S16x1x256x16_0_255_0_0 : S16x256x256x16.Slices ![0, 255, 0, 0] S16x1x256x16
  slices_S16x256x256x16_S16x255x256x16_0_0_0_0 : S16x256x256x16.Slices ![0, 0, 0, 0] S16x255x256x16
  concatenates_S16x1x256x16_S16x255x256x16_S16x256x256x16_d1 : Shape.Concatenates [S16x1x256x16, S16x255x256x16] S16x256x256x16 1
  slices_S16x256x256x16_S16x256x255x16_0_0_1_0 : S16x256x256x16.Slices ![0, 0, 1, 0] S16x256x255x16
  slices_S16x256x256x16_S16x256x1x16_0_0_0_0 : S16x256x256x16.Slices ![0, 0, 0, 0] S16x256x1x16
  concatenates_S16x256x255x16_S16x256x1x16_S16x256x256x16_d2 : Shape.Concatenates [S16x256x255x16, S16x256x1x16] S16x256x256x16 2
  slices_S16x256x256x16_S16x256x1x16_0_0_255_0 : S16x256x256x16.Slices ![0, 0, 255, 0] S16x256x1x16
  slices_S16x256x256x16_S16x256x255x16_0_0_0_0 : S16x256x256x16.Slices ![0, 0, 0, 0] S16x256x255x16
  concatenates_S16x256x1x16_S16x256x255x16_S16x256x256x16_d2 : Shape.Concatenates [S16x256x1x16, S16x256x255x16] S16x256x256x16 2
  slices_S16x256x256x16_S16x256x256x16_0_0_0_0 : S16x256x256x16.Slices ![0, 0, 0, 0] S16x256x256x16
  slices_S16x256x256x16_S16x0x256x16_0_0_0_0 : S16x256x256x16.Slices ![0, 0, 0, 0] S16x0x256x16
  concatenates_S16x256x256x16_S16x0x256x16_S16x256x256x16_d1 : Shape.Concatenates [S16x256x256x16, S16x0x256x16] S16x256x256x16 1
  bcast_S_S16x256x256x16 : S_.BroadcastsInDim S16x256x256x16 (![] : Fin 0 → Fin S16x256x256x16.rank)
  slices_S16x256x256x16_S16x255x256x16_0_1_0_0 : S16x256x256x16.Slices ![0, 1, 0, 0] S16x255x256x16
  slices_S16x256x256x16_S16x1x256x16_0_0_0_0 : S16x256x256x16.Slices ![0, 0, 0, 0] S16x1x256x16
  concatenates_S16x255x256x16_S16x1x256x16_S16x256x256x16_d1 : Shape.Concatenates [S16x255x256x16, S16x1x256x16] S16x256x256x16 1
  slices_S16x256x256x16_S16x256x0x16_0_0_0_0 : S16x256x256x16.Slices ![0, 0, 0, 0] S16x256x0x16
  concatenates_S16x256x256x16_S16x256x0x16_S16x256x256x16_d2 : Shape.Concatenates [S16x256x256x16, S16x256x0x16] S16x256x256x16 2
  concatenates_S16x256x256x16_S16x256x256x16_S16x256x256x16_S16x256x256x48_d3 : Shape.Concatenates [S16x256x256x16, S16x256x256x16, S16x256x256x16] S16x256x256x48 3
  bcast_S_S16x256x256x128 : S_.BroadcastsInDim S16x256x256x128 (![] : Fin 0 → Fin S16x256x256x128.rank)
  dot_S16x256x256x48_S128x48_S16x256x256x128_3_1_012_0_n_n_wf : DotDims.WF S16x256x256x48 S128x48 S16x256x256x128 [3] [1] [0, 1, 2] [0] [] []
  dot_S16x256x256x128_S16x128_S16x256x256x16_3_1_012_0_n_n_wf : DotDims.WF S16x256x256x128 S16x128 S16x256x256x16 [3] [1] [0, 1, 2] [0] [] []

variable [Facts₀]

def dot_S16x256x256x48_S128x48_S16x256x256x128_3_1_012_0_n_n : DotDims S16x256x256x48 S128x48 S16x256x256x128 where
  lhsContracting := [3]
  rhsContracting := [1]
  lhsNonContracting := [0, 1, 2]
  rhsNonContracting := [0]
  lhsBatch := []
  rhsBatch := []
  wf := dot_S16x256x256x48_S128x48_S16x256x256x128_3_1_012_0_n_n_wf
def dot_S16x256x256x128_S16x128_S16x256x256x16_3_1_012_0_n_n : DotDims S16x256x256x128 S16x128 S16x256x256x16 where
  lhsContracting := [3]
  rhsContracting := [1]
  lhsNonContracting := [0, 1, 2]
  rhsNonContracting := [0]
  lhsBatch := []
  rhsBatch := []
  wf := dot_S16x256x256x128_S16x128_S16x256x256x16_3_1_012_0_n_n_wf

class Facts : Prop extends Facts₀ where

variable [Facts]
-- ==== Proof.LibSharedFrame.lean ====
/-
  A frame run for a kernel region whose INPUT windows may read ONE array through several block maps.

  The pipeline's launch theorem for distinct arrays holds every windowed array at the full share. When several input
  windows stage blocks of the same array, the array's one points-to is split among them, each window holding its own
  share; what remains to say is how the buffers behind the arrays, whole at their entry contents, make up the
  windows' holdings (`hsplit`). Given that, the run is the class's: every weakly fair execution of @main terminates,
  each window's array ends at what the write-backs computed from the proof data make of it, and every other
  unscoped buffer ends as the region found it. The body keeps only the core's scoped rest between points.
-/
import Idealize.ShloMosaic.Lib.Pipeline.Frame

noncomputable section

namespace Cert.Lib.SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of a region whose windows may share arrays: the layout facts by name (no distinctness of the
    arrays), the proof data with the scoped rest as its invariant at the first and after the last point, and the
    split of the arrays' buffers among the windows at entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib.SharedFrame

end
-- ==== Proof.KernelFrame.lean ====
/-
  The kernel's run, by hand, over the pipeline library: the convolution kernel stages the state array through THREE
  input windows at once — a block of 32 image rows, and the single rows just above and just below it (wrapping
  around the torus) — beside the two weight tables and the output block.

  @main first computes the folded weight table on the host (`hostOps0`), then enters the one region. Per grid
  point the body loads its five input blocks, computes, and overwrites the whole output block; nothing is kept
  between points. What the output block holds after the body is the canon of that one store (`out0_5`). The three
  windows on the state array share its points-to: a half and two quarters (`hsplit`). From the run's post every
  argument array is read back unchanged (`frame`) and the result array is what the write-backs make of the blocks
  (`run_main`).
-/
import proofs.«110589_j15324443312135_2_alg».proof.Proof.Gen.Kernel.Launch
import proofs.«110589_j15324443312135_2_alg».proof.Proof.Gen.Kernel.Skeleton
import proofs.«110589_j15324443312135_2_alg».proof.Proof.Gen.Kernel.Points
import proofs.«110589_j15324443312135_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that fold the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the three argument arrays: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rMain : Rect S1x32x256x16 := Rect.unit (s := S1x32x256x16) ![0, 0, 0, 0] S1x32x256x16.size inb_S1x32x256x16_S1x32x256x16_0_0_0_0
abbrev rRow : Rect S1x1x256x16 := Rect.unit (s := S1x1x256x16) ![0, 0, 0, 0] S1x1x256x16.size inb_S1x1x256x16_S1x1x256x16_0_0_0_0
abbrev rWe : Rect S144x128 := Rect.unit (s := S144x128) ![0, 0] S144x128.size inb_S144x128_S144x128_0_0
abbrev rWt : Rect S128x16 := Rect.unit (s := S128x16) ![0, 0] S128x16.size inb_S128x16_S128x16_0_0

/-! ## What the body leaves in the output window's buffer -/

/-- The output buffer after the body, from the five input blocks: its one store, over the body's arithmetic. -/
def out0_5 (x0 : Vec F S1x32x256x16 .f32) (x1 x2 : Vec F S1x1x256x16 .f32) (x3 : Vec F S144x128 .bf16) (x4 : Vec F S128x16 .bf16) : Vec F S1x32x256x16 .f32 :=
  View.canon [⟨rMain, k0_pay1 (k0_pay2 (View.ld x0 rMain) (View.ld x1 rRow) (View.ld x2 rRow) (View.ld x3 rWe) (View.ld x4 rWt))⟩]

/-- The store covers the buffer. -/
theorem cover0_5 (p0 : Vec F S1x32x256x16 .f32) (y : S1x32x256x16.Idx) :
    ∃ pc ∈ ([⟨rMain, p0⟩] : List (View.Piece (Elt F) S1x32x256x16 .f32)), y ∈ pc.1.set :=
  View.cover_of_tiled [⟨rMain, p0⟩] S1x32x256x16.size (by rfl) y

/-! ## The body's triple -/

set_option maxHeartbeats 4000000 in
/-- The body on whole staging memrefs, the inputs' at read contents and the output's at anything, runs to the
    continuation holding the inputs' as they were and the output's at `out0_5` of the inputs'. -/
theorem sound_kernel (c : Dev nD) (E : Set ℕ) (i : grid0.Coords)
    (arg2 : Memref sig .tc .vmem S1x32x256x16 .f32) (harg2 : arg2.IsWhole) (arg3 : Memref sig .tc .vmem S1x1x256x16 .f32) (harg3 : arg3.IsWhole)
    (arg4 : Memref sig .tc .vmem S1x1x256x16 .f32) (harg4 : arg4.IsWhole) (arg5 : Memref sig .tc .vmem S144x128 .bf16) (harg5 : arg5.IsWhole)
    (arg6 : Memref sig .tc .vmem S128x16 .bf16) (harg6 : arg6.IsWhole) (arg7 : Memref sig .tc .vmem S1x32x256x16 .f32) (harg7 : arg7.IsWhole)
    (x0 : Vec F S1x32x256x16 .f32) (x1 x2 : Vec F S1x1x256x16 .f32) (x3 : Vec F S144x128 .bf16) (x4 : Vec F S128x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__dense_cnn_kernel i arg2 harg2 arg3 harg3 arg4 harg4 arg5 harg5 arg6 harg6 arg7 harg7) K := by
  simp only [cc0__dense_cnn_kernel_eq_skeleton]; unfold cc0__dense_cnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them; after the body each
    input's buffer at its block and the output's at `out0_5` of the input blocks; the invariant the core's scoped
    rest; nothing owed; the state array's share dealt a half and two quarters to its three windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The arrays at entry, dealt to the windows -/

/-- The four distinct buffers behind the six windows' arrays. -/
theorem arrRefs_eq : (Finset.univ.image (Pipeline.arrRef spec0) : Finset (Ref sig .tc)) = ([main_arg0, main_v79, main_v81, main_v82] : List (Ref sig .tc)).toFinset := by
  decide

theorem arrTerm0 (c : Dev nD) : (((cfg0.win 0).arr.view.loc (c.tc : Thread nD τ)) ↦[(cfg0.win 0).arr.view.set]{(dats m 0 c).share 0} (dats m 0 c).arrAt 0 0 : sProp 𝕄)
    = (((c.tc : Thread nD τ).loc main_arg0) ↦{fullShare.left} V m c main_arg0) := by
  rw [(arr_whole0 0).set_eq_univ]; rfl
theorem arrTerm1 (c : Dev nD) : (((cfg0.win 1).arr.view.loc (c.tc : Thread nD τ)) ↦[(cfg0.win 1).arr.view.set]{(dats m 0 c).share 1} (dats m 0 c).arrAt 1 0 : sProp 𝕄)
    = (((c.tc : Thread nD τ).loc main_arg0) ↦{fullShare.right.left} V m c main_arg0) := by
  rw [(arr_whole0 1).set_eq_univ]; rfl
theorem arrTerm2 (c : Dev nD) : (((cfg0.win 2).arr.view.loc (c.tc : Thread nD τ)) ↦[(cfg0.win 2).arr.view.set]{(dats m 0 c).share 2} (dats m 0 c).arrAt 2 0 : sProp 𝕄)
    = (((c.tc : Thread nD τ).loc main_arg0) ↦{fullShare.right.right} V m c main_arg0) := by
  rw [(arr_whole0 2).set_eq_univ]; rfl
theorem arrTerm3 (c : Dev nD) : (((cfg0.win 3).arr.view.loc (c.tc : Thread nD τ)) ↦[(cfg0.win 3).arr.view.set]{(dats m 0 c).share 3} (dats m 0 c).arrAt 3 0 : sProp 𝕄)
    = (((c.tc : Thread nD τ).loc main_v79) ↦{fullShare} V m c main_v79) := by
  rw [(arr_whole0 3).set_eq_univ]; rfl
theorem arrTerm4 (c : Dev nD) : (((cfg0.win 4).arr.view.loc (c.tc : Thread nD τ)) ↦[(cfg0.win 4).arr.view.set]{(dats m 0 c).share 4} (dats m 0 c).arrAt 4 0 : sProp 𝕄)
    = (((c.tc : Thread nD τ).loc main_v81) ↦{fullShare} V m c main_v81) := by
  rw [(arr_whole0 4).set_eq_univ]; rfl
theorem arrTerm5 (c : Dev nD) : (((cfg0.win 5).arr.view.loc (c.tc : Thread nD τ)) ↦[(cfg0.win 5).arr.view.set]{(dats m 0 c).share 5} (dats m 0 c).arrAt 5 0 : sProp 𝕄)
    = (((c.tc : Thread nD τ).loc main_v82) ↦{fullShare} V m c main_v82) := by
  rw [(arr_whole0 5).set_eq_univ]; rfl

/-- The buffers behind the arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v79) ↦{fullShare} V m c main_v79)
          ∗ (((c.tc : Thread nD τ).loc main_v81) ↦{fullShare} V m c main_v81) ∗ (((c.tc : Thread nD τ).loc main_v82) ↦{fullShare} V m c main_v82)) :=
  bigSep_eq_bigSepL_of_eq [main_arg0, main_v79, main_v81, main_v82] arrRefs_eq (by decide) _

/-- The buffers behind the arrays, whole at entry, are the windows' holdings: the state array's points-to split in
    a half and two quarters among its three windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [arrTerm0, arrTerm1, arrTerm2, arrTerm3, arrTerm4, arrTerm5]
  iintro ⟨H0, H3, H4, H5⟩
  ihave H0 := (pointsTo_share (PosShare.mem_left_op_right fullShare)).1 $$ H0
  icases H0 with ⟨Ha, Hr⟩
  ihave Hr := (pointsTo_share (PosShare.mem_left_op_right fullShare.right)).1 $$ Hr
  icases Hr with ⟨Hb, Hc⟩
  isplitl [Ha]; · iexact Ha
  isplitl [Hb]; · iexact Hb
  isplitl [Hc]; · iexact Hc
  isplitl [H3]; · iexact H3
  isplitl [H4]; · iexact H4
  iexact H5

/-! ## The run and the frame -/

set_option backward.isDefEq.respectTransparency.types false in
/-- Every weakly fair execution of @main terminates; every final state has each window's array at what the
    write-backs make of it and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- info: 'Cert.Kernel.Gen.Hand.run_main' depends on axioms: [propext, Classical.choice, Quot.sound] -/
#guard_msgs in #print axioms run_main

/-- The frame: every execution terminates without a fault and the three argument arrays end unchanged — the state
    array as an input window's array, the two weight arrays as buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.Kernel.Gen.Hand

end
-- ==== Proof.KernelIdealFrame.lean ====
/-
  The kernel's run, by hand, over the pipeline library: the convolution kernel stages the state array through THREE
  input windows at once — a block of 32 image rows, and the single rows just above and just below it (wrapping
  around the torus) — beside the two weight tables and the output block.

  @main first computes the folded weight table on the host (`hostOps0`), then enters the one region. Per grid
  point the body loads its five input blocks, computes, and overwrites the whole output block; nothing is kept
  between points. What the output block holds after the body is the canon of that one store (`out0_5`). The three
  windows on the state array share its points-to: a half and two quarters (`hsplit`). From the run's post every
  argument array is read back unchanged (`frame`) and the result array is what the write-backs make of the blocks
  (`run_main`).
-/
import proofs.«110589_j15324443312135_2_alg».proof.Proof.Gen.KernelIdeal.Launch
import proofs.«110589_j15324443312135_2_alg».proof.Proof.Gen.KernelIdeal.Skeleton
import proofs.«110589_j15324443312135_2_alg».proof.Proof.Gen.KernelIdeal.Points
import proofs.«110589_j15324443312135_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that fold the weights. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the three argument arrays: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rMain : Rect S1x32x256x16 := Rect.unit (s := S1x32x256x16) ![0, 0, 0, 0] S1x32x256x16.size inb_S1x32x256x16_S1x32x256x16_0_0_0_0
abbrev rRow : Rect S1x1x256x16 := Rect.unit (s := S1x1x256x16) ![0, 0, 0, 0] S1x1x256x16.size inb_S1x1x256x16_S1x1x256x16_0_0_0_0
abbrev rWe : Rect S144x128 := Rect.unit (s := S144x128) ![0, 0] S144x128.size inb_S144x128_S144x128_0_0
abbrev rWt : Rect S128x16 := Rect.unit (s := S128x16) ![0, 0] S128x16.size inb_S128x16_S128x16_0_0

/-! ## What the body leaves in the output window's buffer -/

/-- The output buffer after the body, from the five input blocks: its one store, over the body's arithmetic. -/
def out0_5 (x0 : Vec F S1x32x256x16 .f32) (x1 x2 : Vec F S1x1x256x16 .f32) (x3 : Vec F S144x128 .bf16) (x4 : Vec F S128x16 .bf16) : Vec F S1x32x256x16 .f32 :=
  View.canon [⟨rMain, k0_pay1 (k0_pay2 (View.ld x0 rMain) (View.ld x1 rRow) (View.ld x2 rRow) (View.ld x3 rWe) (View.ld x4 rWt))⟩]

/-- The store covers the buffer. -/
theorem cover0_5 (p0 : Vec F S1x32x256x16 .f32) (y : S1x32x256x16.Idx) :
    ∃ pc ∈ ([⟨rMain, p0⟩] : List (View.Piece (Elt F) S1x32x256x16 .f32)), y ∈ pc.1.set :=
  View.cover_of_tiled [⟨rMain, p0⟩] S1x32x256x16.size (by rfl) y

/-! ## The body's triple -/

set_option maxHeartbeats 4000000 in
/-- The body on whole staging memrefs, the inputs' at read contents and the output's at anything, runs to the
    continuation holding the inputs' as they were and the output's at `out0_5` of the inputs'. -/
theorem sound_kernel (c : Dev nD) (E : Set ℕ) (i : grid0.Coords)
    (arg2 : Memref sig .tc .vmem S1x32x256x16 .f32) (harg2 : arg2.IsWhole) (arg3 : Memref sig .tc .vmem S1x1x256x16 .f32) (harg3 : arg3.IsWhole)
    (arg4 : Memref sig .tc .vmem S1x1x256x16 .f32) (harg4 : arg4.IsWhole) (arg5 : Memref sig .tc .vmem S144x128 .bf16) (harg5 : arg5.IsWhole)
    (arg6 : Memref sig .tc .vmem S128x16 .bf16) (harg6 : arg6.IsWhole) (arg7 : Memref sig .tc .vmem S1x32x256x16 .f32) (harg7 : arg7.IsWhole)
    (x0 : Vec F S1x32x256x16 .f32) (x1 x2 : Vec F S1x1x256x16 .f32) (x3 : Vec F S144x128 .bf16) (x4 : Vec F S128x16 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__dense_cnn_kernel i arg2 harg2 arg3 harg3 arg4 harg4 arg5 harg5 arg6 harg6 arg7 harg7) K := by
  simp only [cc0__dense_cnn_kernel_eq_skeleton]; unfold cc0__dense_cnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them; after the body each
    input's buffer at its block and the output's at `out0_5` of the input blocks; the invariant the core's scoped
    rest; nothing owed; the state array's share dealt a half and two quarters to its three windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.scopedRest spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The arrays at entry, dealt to the windows -/

/-- The four distinct buffers behind the six windows' arrays. -/
theorem arrRefs_eq : (Finset.univ.image (Pipeline.arrRef spec0) : Finset (Ref sig .tc)) = ([main_arg0, main_v79, main_v81, main_v82] : List (Ref sig .tc)).toFinset := by
  decide

theorem arrTerm0 (c : Dev nD) : (((cfg0.win 0).arr.view.loc (c.tc : Thread nD τ)) ↦[(cfg0.win 0).arr.view.set]{(dats m 0 c).share 0} (dats m 0 c).arrAt 0 0 : sProp 𝕄)
    = (((c.tc : Thread nD τ).loc main_arg0) ↦{fullShare.left} V m c main_arg0) := by
  rw [(arr_whole0 0).set_eq_univ]; rfl
theorem arrTerm1 (c : Dev nD) : (((cfg0.win 1).arr.view.loc (c.tc : Thread nD τ)) ↦[(cfg0.win 1).arr.view.set]{(dats m 0 c).share 1} (dats m 0 c).arrAt 1 0 : sProp 𝕄)
    = (((c.tc : Thread nD τ).loc main_arg0) ↦{fullShare.right.left} V m c main_arg0) := by
  rw [(arr_whole0 1).set_eq_univ]; rfl
theorem arrTerm2 (c : Dev nD) : (((cfg0.win 2).arr.view.loc (c.tc : Thread nD τ)) ↦[(cfg0.win 2).arr.view.set]{(dats m 0 c).share 2} (dats m 0 c).arrAt 2 0 : sProp 𝕄)
    = (((c.tc : Thread nD τ).loc main_arg0) ↦{fullShare.right.right} V m c main_arg0) := by
  rw [(arr_whole0 2).set_eq_univ]; rfl
theorem arrTerm3 (c : Dev nD) : (((cfg0.win 3).arr.view.loc (c.tc : Thread nD τ)) ↦[(cfg0.win 3).arr.view.set]{(dats m 0 c).share 3} (dats m 0 c).arrAt 3 0 : sProp 𝕄)
    = (((c.tc : Thread nD τ).loc main_v79) ↦{fullShare} V m c main_v79) := by
  rw [(arr_whole0 3).set_eq_univ]; rfl
theorem arrTerm4 (c : Dev nD) : (((cfg0.win 4).arr.view.loc (c.tc : Thread nD τ)) ↦[(cfg0.win 4).arr.view.set]{(dats m 0 c).share 4} (dats m 0 c).arrAt 4 0 : sProp 𝕄)
    = (((c.tc : Thread nD τ).loc main_v81) ↦{fullShare} V m c main_v81) := by
  rw [(arr_whole0 4).set_eq_univ]; rfl
theorem arrTerm5 (c : Dev nD) : (((cfg0.win 5).arr.view.loc (c.tc : Thread nD τ)) ↦[(cfg0.win 5).arr.view.set]{(dats m 0 c).share 5} (dats m 0 c).arrAt 5 0 : sProp 𝕄)
    = (((c.tc : Thread nD τ).loc main_v82) ↦{fullShare} V m c main_v82) := by
  rw [(arr_whole0 5).set_eq_univ]; rfl

/-- The buffers behind the arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v79) ↦{fullShare} V m c main_v79)
          ∗ (((c.tc : Thread nD τ).loc main_v81) ↦{fullShare} V m c main_v81) ∗ (((c.tc : Thread nD τ).loc main_v82) ↦{fullShare} V m c main_v82)) :=
  bigSep_eq_bigSepL_of_eq [main_arg0, main_v79, main_v81, main_v82] arrRefs_eq (by decide) _

/-- The buffers behind the arrays, whole at entry, are the windows' holdings: the state array's points-to split in
    a half and two quarters among its three windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [arrTerm0, arrTerm1, arrTerm2, arrTerm3, arrTerm4, arrTerm5]
  iintro ⟨H0, H3, H4, H5⟩
  ihave H0 := (pointsTo_share (PosShare.mem_left_op_right fullShare)).1 $$ H0
  icases H0 with ⟨Ha, Hr⟩
  ihave Hr := (pointsTo_share (PosShare.mem_left_op_right fullShare.right)).1 $$ Hr
  icases Hr with ⟨Hb, Hc⟩
  isplitl [Ha]; · iexact Ha
  isplitl [Hb]; · iexact Hb
  isplitl [Hc]; · iexact Hc
  isplitl [H3]; · iexact H3
  isplitl [H4]; · iexact H4
  iexact H5

/-! ## The run and the frame -/

set_option backward.isDefEq.respectTransparency.types false in
/-- Every weakly fair execution of @main terminates; every final state has each window's array at what the
    write-backs make of it and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun _ => .rfl) (hout := fun _ => .rfl)

/-- info: 'Cert.KernelIdeal.Gen.Hand.run_main' depends on axioms: [propext, Classical.choice, Quot.sound] -/
#guard_msgs in #print axioms run_main

/-- The frame: every execution terminates without a fault and the three argument arrays end unchanged — the state
    array as an input window's array, the two weight arrays as buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.KernelIdeal.Gen.Hand

end
-- ==== Proof.Spec.lean ====
/-
  The mathematics both programs compute, stated once over plain index functions.

  A cellular-automaton update on a torus of 256 × 256 pixels with 16 channels, 16 grids at a time:
  the 3 × 3 neighbourhood of a pixel wraps around in both directions (`nb`). The reference forms
  the two Sobel responses `sx`, `sy` of every channel, lays them beside the state itself as a
  48-channel perception vector, applies a 48 → 128 linear map, the rectifier, and a 128 → 16 linear map
  (`Gref`). The kernel never forms the Sobel responses: it lays the nine raw neighbours side by side as a
  144-wide row (`tapv`) and multiplies by a 144 × 128 matrix `weff` into which the Sobel coefficients have been
  folded ahead of time (`Gker`, through `Kmid`, the same pipeline over any two weight tables).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![16, 256, 256, 16]⟩
abbrev SWh : Shape := ⟨2, ![128, 48]⟩
abbrev SWo : Shape := ⟨2, ![16, 128]⟩
abbrev SWe : Shape := ⟨2, ![144, 128]⟩
abbrev SWt : Shape := ⟨2, ![128, 16]⟩

/-- The neighbour of position `h` at offset `d - 1` (`d = 0, 1, 2` for `-1, 0, +1`) on a ring of 256. -/
def nb (d : Fin 3) (h : Fin 256) : Fin 256 := ⟨(h.val + 255 + d.val) % 256, Nat.mod_lt _ (by decide)⟩

/-- The state at the neighbour `(di - 1, dj - 1)` of pixel `(h, w)`. -/
def shifted (x : SX.Idx → EReal) (di dj : Fin 3) (b : Fin 16) (h w : Fin 256) (c : Fin 16) : EReal :=
  x (ix4 b (nb di h) (nb dj w) c)

/-- Column `j` of the row of nine neighbours at a pixel: neighbour `j / 16` (row-major over the
    3 × 3 offsets, top left first), channel `j % 16`. -/
def tapv (x : SX.Idx → EReal) (b : Fin 16) (h w : Fin 256) (j : Fin 144) : EReal :=
  shifted x ⟨j.val / 16 / 3, by omega⟩ ⟨j.val / 16 % 3, by omega⟩ b h w ⟨j.val % 16, by omega⟩

/-- Neighbours × table, rectified, × table: the kernel's pipeline over any two weight tables. -/
def Kmid (x : SX.Idx → EReal) (we : SWe.Idx → EReal) (wt : SWt.Idx → EReal) : SX.Idx → EReal := fun i =>
  ∑ k : Fin 128, max (∑ j : Fin 144, tapv x (i 0) (i 1) (i 2) j * we (ix2 j k)) 0 * wt (ix2 k (i 3))

/-- The Sobel x-coefficient of each of the nine neighbours, as the f32 words the program spells them with
    (-1, 0, 1, -2, 0, 2, -1, 0, 1). -/
def cx : Fin 9 → BitVec 32 :=
  ![0xBF800000#32, 0x00000000#32, 0x3F800000#32, 0xC0000000#32, 0x00000000#32, 0x40000000#32, 0xBF800000#32, 0x00000000#32, 0x3F800000#32]
/-- The Sobel y-coefficients (-1, -2, -1, 0, 0, 0, 1, 2, 1). -/
def cy : Fin 9 → BitVec 32 :=
  ![0xBF800000#32, 0xC0000000#32, 0xBF800000#32, 0x00000000#32, 0x00000000#32, 0x00000000#32, 0x3F800000#32, 0x40000000#32, 0x3F800000#32]
/-- The identity's coefficients: 1 at the centre. -/
def cc : Fin 9 → BitVec 32 :=
  ![0x00000000#32, 0x00000000#32, 0x00000000#32, 0x00000000#32, 0x3F800000#32, 0x00000000#32, 0x00000000#32, 0x00000000#32, 0x00000000#32]

/-- Entry `(j, k)` of the folded first-layer matrix: for neighbour `t = j / 16` and channel `c = j % 16`,
    `(cx t · Wh[k, c] + cy t · Wh[k, 16 + c]) + cc t · Wh[k, 32 + c]`. -/
def weffAt (wh : SWh.Idx → EReal) (j : Fin 144) (k : Fin 128) : EReal :=
  (Ideal.ofBits .f32 (cx ⟨j.val / 16, by omega⟩) * wh (ix2 k (⟨j.val % 16, by omega⟩ : Fin 48))
    + Ideal.ofBits .f32 (cy ⟨j.val / 16, by omega⟩) * wh (ix2 k (⟨16 + j.val % 16, by omega⟩ : Fin 48)))
    + Ideal.ofBits .f32 (cc ⟨j.val / 16, by omega⟩) * wh (ix2 k (⟨32 + j.val % 16, by omega⟩ : Fin 48))

def weff (wh : SWh.Idx → EReal) : SWe.Idx → EReal := fun i => weffAt wh (i 0) (i 1)

/-- The second layer's matrix transposed. -/
def woT (wo : SWo.Idx → EReal) : SWt.Idx → EReal := fun i => wo (ix2 (i 1) (i 0))

/-- What the kernel computes, as one function of the three argument arrays. -/
def Gker (x : SX.Idx → EReal) (wh : SWh.Idx → EReal) (wo : SWo.Idx → EReal) : SX.Idx → EReal :=
  Kmid x (weff wh) (woT wo)

/-- The f32 word of 2. -/
def two : EReal := Ideal.ofBits .f32 0x40000000#32

/-- The Sobel x-response at a pixel and channel, in the reference's grouping. -/
def sx (x : SX.Idx → EReal) (b : Fin 16) (h w : Fin 256) (c : Fin 16) : EReal :=
  ((shifted x 0 2 b h w c - shifted x 0 0 b h w c) + two * (shifted x 1 2 b h w c - shifted x 1 0 b h w c))
    + (shifted x 2 2 b h w c - shifted x 2 0 b h w c)

/-- The Sobel y-response, in the reference's grouping. -/
def sy (x : SX.Idx → EReal) (b : Fin 16) (h w : Fin 256) (c : Fin 16) : EReal :=
  ((shifted x 2 0 b h w c - shifted x 0 0 b h w c) + two * (shifted x 2 1 b h w c - shifted x 0 1 b h w c))
    + (shifted x 2 2 b h w c - shifted x 0 2 b h w c)

/-- The 48-channel perception vector: Sobel x, Sobel y, the state. -/
def perc (x : SX.Idx → EReal) (b : Fin 16) (h w : Fin 256) (c' : Fin 48) : EReal :=
  if h1 : c'.val < 16 then sx x b h w ⟨c'.val, h1⟩
  else if h2 : c'.val < 32 then sy x b h w ⟨c'.val - 16, by omega⟩
  else x (ix4 b h w (⟨c'.val - 32, by omega⟩ : Fin 16))

/-- What the reference computes, as one function of the three argument arrays. -/
def Gref (x : SX.Idx → EReal) (wh : SWh.Idx → EReal) (wo : SWo.Idx → EReal) : SX.Idx → EReal := fun i =>
  ∑ k : Fin 128, max (∑ c' : Fin 48, perc x (i 0) (i 1) (i 2) c' * wh (ix2 k c')) 0 * wo (ix2 (i 3) k)

end Cert.Spec

end
-- ==== Proof.TapLayout.lean ====
/-
  The data movement inside one tile, read element by element.

  A tile is 32 image rows of 256 pixels with 16 channels. The row above a pixel is found by laying the single row
  that precedes the tile on top of the tile's first 31 rows; the row below by laying the row that follows the tile
  under the tile's last 31 rows. The left and right neighbours are found by rotating the columns around the ring of
  256. The nine neighbour tiles are then laid side by side along the channels, and the 32 × 256 pixels are counted
  row by row. Each lemma here reads one such rearrangement at an explicit position.
-/
import Idealize.ShloMosaic.Lib.ValueLayout
import Idealize.ShloMosaic.Lib.KernelVsHost

namespace Cert.KernelIdeal.KerValue

open Idealize.ShloMosaic Idealize.ShloMosaic.ValueIdx

variable {α : Type}

/-- A tile of 32 image rows, one halo row, and a tile less one row. -/
abbrev T3 : Shape := ⟨3, ![32, 256, 16]⟩
abbrev H3 : Shape := ⟨3, ![1, 256, 16]⟩
abbrev R3 : Shape := ⟨3, ![31, 256, 16]⟩
abbrev T9 : Shape := ⟨3, ![32, 256, 144]⟩

/-- Rows 0 … 30 of a tile. -/
theorem slice_lo_apply (x : T3.Idx → α) (h : T3.Slices ![0, 0, 0] R3) (r : Fin 31) (w : Fin 256) (c : Fin 16) :
    extractStridedSlice R3 ![0, 0, 0] x h (ix3 r w c) = x (ix3 (⟨r.val, by omega⟩ : Fin 32) w c) :=
  extractStridedSlice_apply _ x h _ _ fun a => match a with
    | ⟨0, _⟩ => (Nat.zero_add _).symm
    | ⟨1, _⟩ => (Nat.zero_add _).symm
    | ⟨2, _⟩ => (Nat.zero_add _).symm

/-- Rows 1 … 31 of a tile. -/
theorem slice_hi_apply (x : T3.Idx → α) (h : T3.Slices ![1, 0, 0] R3) (r : Fin 31) (w : Fin 256) (c : Fin 16) :
    extractStridedSlice R3 ![1, 0, 0] x h (ix3 r w c) = x (ix3 (⟨r.val + 1, by omega⟩ : Fin 32) w c) :=
  extractStridedSlice_apply _ x h _ _ fun a => match a with
    | ⟨0, _⟩ => Nat.add_comm _ _
    | ⟨1, _⟩ => (Nat.zero_add _).symm
    | ⟨2, _⟩ => (Nat.zero_add _).symm

/-- The halo row laid above rows 0 … 30: row 0 reads the halo. -/
theorem above_zero (y : H3.Idx → α) (z : R3.Idx → α) (h : Shape.Concatenates [H3, R3] T3 0) (w : Fin 256) (c : Fin 16) :
    concatenate T3 0 [⟨H3, y⟩, ⟨R3, z⟩] h (ix3 (0 : Fin 32) w c) = y (ix3 (0 : Fin 1) w c) :=
  concatenate_pair_apply_left 0 y z h _ rfl _ fun b => match b with
    | ⟨0, _⟩ => rfl
    | ⟨1, _⟩ => rfl
    | ⟨2, _⟩ => rfl

/-- The halo row laid above rows 0 … 30: row r + 1 reads row r. -/
theorem above_succ (y : H3.Idx → α) (z : R3.Idx → α) (h : Shape.Concatenates [H3, R3] T3 0) (r : Fin 31) (w : Fin 256) (c : Fin 16) :
    concatenate T3 0 [⟨H3, y⟩, ⟨R3, z⟩] h (ix3 (⟨r.val + 1, by omega⟩ : Fin 32) w c) = z (ix3 r w c) :=
  concatenate_pair_apply_right 0 y z h _ rfl rfl _ (fun b => match b with
    | ⟨0, _⟩ => fun hb => absurd rfl hb
    | ⟨1, _⟩ => fun _ => rfl
    | ⟨2, _⟩ => fun _ => rfl) rfl

/-- Rows 1 … 31 with the halo row laid below: row r < 31 reads row r of the slice. -/
theorem below_lt (z : R3.Idx → α) (y : H3.Idx → α) (h : Shape.Concatenates [R3, H3] T3 0) (r : Fin 31) (w : Fin 256) (c : Fin 16) :
    concatenate T3 0 [⟨R3, z⟩, ⟨H3, y⟩] h (ix3 (⟨r.val, by omega⟩ : Fin 32) w c) = z (ix3 r w c) :=
  concatenate_pair_apply_left 0 z y h _ rfl _ fun b => match b with
    | ⟨0, _⟩ => rfl
    | ⟨1, _⟩ => rfl
    | ⟨2, _⟩ => rfl

/-- Rows 1 … 31 with the halo row laid below: row 31 reads the halo. -/
theorem below_last (z : R3.Idx → α) (y : H3.Idx → α) (h : Shape.Concatenates [R3, H3] T3 0) (w : Fin 256) (c : Fin 16) :
    concatenate T3 0 [⟨R3, z⟩, ⟨H3, y⟩] h (ix3 (31 : Fin 32) w c) = y (ix3 (0 : Fin 1) w c) :=
  concatenate_pair_apply_right 0 z y h _ rfl rfl _ (fun b => match b with
    | ⟨0, _⟩ => fun hb => absurd rfl hb
    | ⟨1, _⟩ => fun _ => rfl
    | ⟨2, _⟩ => fun _ => rfl) rfl

/-- A rotation along the columns by `s` reads column `w + 256 - s % 256` around the ring. -/
theorem rotate_apply (sb : BitVec 32) (x : T3.Idx → α) (h : T3.Rotates 1 none) (r : Fin 32) (w : Fin 256) (c : Fin 16) :
    dynamicRotate 1 sb none x h (ix3 r w c)
      = x (ix3 r (⟨(w.val + 256 - sb.toNat % 256) % 256, Nat.mod_lt _ (by decide)⟩ : Fin 256) c) :=
  dynamicRotate_apply 1 sb x h _ _ fun b => match b with
    | ⟨0, _⟩ => rfl
    | ⟨1, _⟩ => rfl
    | ⟨2, _⟩ => rfl

/-- Nine tiles laid side by side along the channels: channel `j` of the result is channel `j % 16` of tile `j / 16`. -/
theorem beside_apply (a0 a1 a2 a3 a4 a5 a6 a7 a8 : T3.Idx → α)
    (h : Shape.Concatenates [T3, T3, T3, T3, T3, T3, T3, T3, T3] T9 2) (r : Fin 32) (w : Fin 256) (j : Fin 144) :
    concatenate T9 2 [⟨T3, a0⟩, ⟨T3, a1⟩, ⟨T3, a2⟩, ⟨T3, a3⟩, ⟨T3, a4⟩, ⟨T3, a5⟩, ⟨T3, a6⟩, ⟨T3, a7⟩, ⟨T3, a8⟩] h (ix3 r w j)
      = (![a0, a1, a2, a3, a4, a5, a6, a7, a8] : Fin 9 → T3.Idx → α) (⟨j.val / 16, by omega⟩ : Fin 9)
          (ix3 r w (⟨j.val % 16, Nat.mod_lt _ (by decide)⟩ : Fin 16)) :=
  concatenate_ofFn_apply (t := T9) (s₁ := T3) 2 (![a0, a1, a2, a3, a4, a5, a6, a7, a8] : Fin 9 → T3.Idx → α) h rfl 16 rfl
    (ix3 r w j) (⟨j.val / 16, by omega⟩ : Fin 9) rfl (ix3 r w (⟨j.val % 16, Nat.mod_lt _ (by decide)⟩ : Fin 16)) rfl
    fun b => match b with
      | ⟨0, _⟩ => fun _ => rfl
      | ⟨1, _⟩ => fun _ => rfl
      | ⟨2, _⟩ => fun hb => absurd rfl hb

/-- The 32 × 256 pixels of a tile counted row by row: pixel `p` is row `p / 256`, column `p % 256`. -/
theorem flatten_apply {n : Nat} (x : (⟨3, ![32, 256, n]⟩ : Shape).Idx → α)
    (h : (⟨3, ![32, 256, n]⟩ : Shape).ShapeCasts ⟨2, ![8192, n]⟩) (p : Fin 8192) (j : Fin n) :
    shapeCast ⟨2, ![8192, n]⟩ x h (ix2 p j)
      = x (ix3 (⟨p.val / 256, by omega⟩ : Fin 32) (⟨p.val % 256, Nat.mod_lt _ (by decide)⟩ : Fin 256) j) :=
  shapeCast_apply x h _ _ (by
    rw [Shape.rowMajor_val_three, Shape.rowMajor_val_two]
    show (p.val / 256 * 256 + p.val % 256) * n + j.val = p.val * n + j.val
    rw [Nat.div_add_mod' p.val 256])

/-- And back: pixel `(r, w)` of the tile is pixel `256 r + w` of the count. -/
theorem unflatten_apply {n : Nat} (y : (⟨2, ![8192, n]⟩ : Shape).Idx → α)
    (h : (⟨2, ![8192, n]⟩ : Shape).ShapeCasts ⟨3, ![32, 256, n]⟩) (r : Fin 32) (w : Fin 256) (c : Fin n) :
    shapeCast ⟨3, ![32, 256, n]⟩ y h (ix3 r w c) = y (ix2 (⟨r.val * 256 + w.val, by omega⟩ : Fin 8192) c) :=
  shapeCast_apply y h _ _ (by
    rw [Shape.rowMajor_val_three, Shape.rowMajor_val_two]
    rfl)

end Cert.KernelIdeal.KerValue
-- ==== Proof.Payload.lean ====
/-
  The arithmetic of the kernel's body, read at one element of the block it stores.

  For a tile of 32 image rows the body lays the nine wrapped neighbours of every pixel side by side as a row of
  144 numbers (`blockTap`: the line above, the line itself, the line below, each at the left, own and right column
  around the ring of 256; the line above row 0 and the line below row 31 come from the two single rows loaded beside the
  tile), multiplies the 8192 × 144 matrix of these rows by the 144 × 128 table, takes the maximum with zero, and multiplies by the
  128 × 16 table. `payload_apply` says so index by index. `payload_eq_Kmid` adds: when the tile is rows
  `32 ht … 32 ht + 31` of image `b` of an array `X` and the two single rows are the rows just before and just after
  them on the ring, the 144 numbers are the array's own neighbours of the pixel, so the stored value is the
  specification's `Kmid X` there.
-/
import proofs.«110589_j15324443312135_2_alg».proof.Proof.Spec
import proofs.«110589_j15324443312135_2_alg».proof.Proof.Gen.KernelIdeal.Skeleton
import proofs.«110589_j15324443312135_2_alg».proof.Proof.TapLayout
import Idealize.ShloMosaic.PureOps.Ideal.Laws

noncomputable section

open scoped BigOperators

namespace Cert.KernelIdeal.KerValue

open Idealize.ShloMosaic Idealize.ShloMosaic.ValueIdx Cert.KernelIdeal Cert.KernelIdeal.Gen

/-! ## The three rows of neighbours and the three columns -/

section Rows
variable {α : Type}

/-- The halo row laid above the tile's first 31 rows: row `r` reads the halo at `r = 0`, else the tile's row `r - 1`. -/
theorem above_apply (x : T3.Idx → α) (y : H3.Idx → α) (h1 : T3.Slices ![0, 0, 0] R3) (h2 : Shape.Concatenates [H3, R3] T3 0)
    (r : Fin 32) (w : Fin 256) (c : Fin 16) :
    concatenate T3 0 [⟨H3, y⟩, ⟨R3, extractStridedSlice R3 ![0, 0, 0] x h1⟩] h2 (ix3 r w c)
      = if r.val = 0 then y (ix3 (0 : Fin 1) w c) else x (ix3 (⟨r.val - 1, by omega⟩ : Fin 32) w c) := by
  by_cases h : r.val = 0
  · rw [if_pos h]
    obtain rfl : r = 0 := Fin.ext h
    exact above_zero y _ h2 w c
  · rw [if_neg h]
    obtain ⟨r', rfl⟩ : ∃ r' : Fin 31, r = ⟨r'.val + 1, by omega⟩ := ⟨⟨r.val - 1, by omega⟩, Fin.ext (by show r.val = r.val - 1 + 1; omega)⟩
    refine (above_succ y _ h2 r' w c).trans ?_
    exact slice_lo_apply x h1 r' w c

/-- The tile's last 31 rows with the halo row laid below: row `r` reads the halo at `r = 31`, else the tile's row `r + 1`. -/
theorem below_apply (x : T3.Idx → α) (y : H3.Idx → α) (h1 : T3.Slices ![1, 0, 0] R3) (h2 : Shape.Concatenates [R3, H3] T3 0)
    (r : Fin 32) (w : Fin 256) (c : Fin 16) :
    concatenate T3 0 [⟨R3, extractStridedSlice R3 ![1, 0, 0] x h1⟩, ⟨H3, y⟩] h2 (ix3 r w c)
      = if h : r.val = 31 then y (ix3 (0 : Fin 1) w c) else x (ix3 (⟨r.val + 1, by omega⟩ : Fin 32) w c) := by
  by_cases h : r.val = 31
  · rw [dif_pos h]
    obtain rfl : r = 31 := Fin.ext h
    exact below_last _ y h2 w c
  · rw [dif_neg h]
    refine (below_lt _ y h2 (⟨r.val, by omega⟩ : Fin 31) w c).trans ?_
    exact slice_hi_apply x h1 _ w c

/-- Rotating by one reads the left neighbour's column. -/
theorem rotate_one (x : T3.Idx → α) (h : T3.Rotates 1 none) (r : Fin 32) (w : Fin 256) (c : Fin 16) :
    dynamicRotate 1 1#32 none x h (ix3 r w c) = x (ix3 r (Cert.Spec.nb 0 w) c) :=
  (rotate_apply 1#32 x h r w c).trans (congrArg (fun q => x (ix3 r q c)) (Fin.ext (by
    show (w.val + 256 - (1#32).toNat % 256) % 256 = (w.val + 255 + (0 : Fin 3).val) % 256
    have e : (1#32).toNat % 256 = 1 := by decide
    rw [e]; show _ = (w.val + 255 + 0) % 256; omega)))

/-- Rotating by 255 reads the right neighbour's column. -/
theorem rotate_last (x : T3.Idx → α) (h : T3.Rotates 1 none) (r : Fin 32) (w : Fin 256) (c : Fin 16) :
    dynamicRotate 1 255#32 none x h (ix3 r w c) = x (ix3 r (Cert.Spec.nb 2 w) c) :=
  (rotate_apply 255#32 x h r w c).trans (congrArg (fun q => x (ix3 r q c)) (Fin.ext (by
    show (w.val + 256 - (255#32).toNat % 256) % 256 = (w.val + 255 + (2 : Fin 3).val) % 256
    have e : (255#32).toNat % 256 = 255 := by decide
    rw [e]; show _ = (w.val + 255 + 2) % 256; omega)))

/-- The centre column is the pixel's own. -/
theorem nb_one (w : Fin 256) : Cert.Spec.nb 1 w = w :=
  Fin.ext (by show (w.val + 255 + 1) % 256 = w.val; omega)

end Rows

/-! ## The two products at an index -/

theorem first_l0 (i : S8192x128.Idx) (q : dot_S8192x144_S144x128_S8192x128_1_0_0_1_n_n.contr.Idx) : (dot_S8192x144_S144x128_S8192x128_1_0_0_1_n_n.lhsIdx i q 0).val = (i 0).val := by
  unfold DotDims.lhsIdx
  rw [dif_neg (show ¬(0 : Fin S8192x144.rank) ∈ dot_S8192x144_S144x128_S8192x128_1_0_0_1_n_n.lhsBatch by decide),
    dif_pos (show (0 : Fin S8192x144.rank) ∈ dot_S8192x144_S144x128_S8192x128_1_0_0_1_n_n.lhsNonContracting by decide)]
  rfl
theorem first_l1 (i : S8192x128.Idx) (q : dot_S8192x144_S144x128_S8192x128_1_0_0_1_n_n.contr.Idx) : (dot_S8192x144_S144x128_S8192x128_1_0_0_1_n_n.lhsIdx i q 1).val = (q ⟨0, by decide⟩).val :=
  dot_S8192x144_S144x128_S8192x128_1_0_0_1_n_n.lhsIdx_val_of_single rfl i q
theorem first_r0 (i : S8192x128.Idx) (q : dot_S8192x144_S144x128_S8192x128_1_0_0_1_n_n.contr.Idx) : (dot_S8192x144_S144x128_S8192x128_1_0_0_1_n_n.rhsIdx i q 0).val = (q ⟨0, by decide⟩).val :=
  dot_S8192x144_S144x128_S8192x128_1_0_0_1_n_n.rhsIdx_val_of_single rfl i q
theorem first_r1 (i : S8192x128.Idx) (q : dot_S8192x144_S144x128_S8192x128_1_0_0_1_n_n.contr.Idx) : (dot_S8192x144_S144x128_S8192x128_1_0_0_1_n_n.rhsIdx i q 1).val = (i 1).val := by
  unfold DotDims.rhsIdx
  rw [dif_neg (show ¬(1 : Fin S144x128.rank) ∈ dot_S8192x144_S144x128_S8192x128_1_0_0_1_n_n.rhsBatch by decide),
    dif_pos (show (1 : Fin S144x128.rank) ∈ dot_S8192x144_S144x128_S8192x128_1_0_0_1_n_n.rhsNonContracting by decide)]
  rfl

/-- The first product at pixel `p` and hidden unit `k`: the sum over the 144 neighbour channels. -/
theorem first_apply (l : FVec Ideal S8192x144 .bf16) (m : FVec Ideal S144x128 .bf16) (p : Fin 8192) (k : Fin 128) :
    matmul dot_S8192x144_S144x128_S8192x128_1_0_0_1_n_n none l m (constant (F := Ideal) S8192x128 .f32 0x00000000#32) (ix2 p k)
      = ∑ j : Fin 144, l (ix2 p j) * m (ix2 j k) := by
  refine (Ideal.matmul_constant_zero_apply dot_S8192x144_S144x128_S8192x128_1_0_0_1_n_n none l m (ix2 p k)).trans ?_
  rw [← Equiv.sum_comp (contrEquiv1 dot_S8192x144_S144x128_S8192x128_1_0_0_1_n_n 144 rfl rfl).symm]
  refine Finset.sum_congr rfl fun j _ => ?_
  have hj := contrEquiv1_symm_val dot_S8192x144_S144x128_S8192x128_1_0_0_1_n_n 144 rfl rfl j
  have el : dot_S8192x144_S144x128_S8192x128_1_0_0_1_n_n.lhsIdx (ix2 p k) ((contrEquiv1 dot_S8192x144_S144x128_S8192x128_1_0_0_1_n_n 144 rfl rfl).symm j) = ix2 p j :=
    funext fun a => Fin.ext (by
      match a with
      | ⟨0, _⟩ => exact first_l0 _ _
      | ⟨1, _⟩ => exact (first_l1 _ _).trans hj)
  have er : dot_S8192x144_S144x128_S8192x128_1_0_0_1_n_n.rhsIdx (ix2 p k) ((contrEquiv1 dot_S8192x144_S144x128_S8192x128_1_0_0_1_n_n 144 rfl rfl).symm j) = ix2 j k :=
    funext fun a => Fin.ext (by
      match a with
      | ⟨0, _⟩ => exact (first_r0 _ _).trans hj
      | ⟨1, _⟩ => exact first_r1 _ _)
  rw [el, er]

theorem second_l0 (i : S8192x16.Idx) (q : dot_S8192x128_S128x16_S8192x16_1_0_0_1_n_n.contr.Idx) : (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide),
    dif_pos (show (0 : Fin S8192x128.rank) ∈ dot_S8192x128_S128x16_S8192x16_1_0_0_1_n_n.lhsNonContracting by decide)]
  rfl
theorem second_l1 (i : S8192x16.Idx) (q : dot_S8192x128_S128x16_S8192x16_1_0_0_1_n_n.contr.Idx) : (dot_S8192x128_S128x16_S8192x16_1_0_0_1_n_n.lhsIdx i q 1).val = (q ⟨0, by decide⟩).val :=
  dot_S8192x128_S128x16_S8192x16_1_0_0_1_n_n.lhsIdx_val_of_single rfl i q
theorem second_r0 (i : S8192x16.Idx) (q : dot_S8192x128_S128x16_S8192x16_1_0_0_1_n_n.contr.Idx) : (dot_S8192x128_S128x16_S8192x16_1_0_0_1_n_n.rhsIdx i q 0).val = (q ⟨0, by decide⟩).val :=
  dot_S8192x128_S128x16_S8192x16_1_0_0_1_n_n.rhsIdx_val_of_single rfl i q
theorem second_r1 (i : S8192x16.Idx) (q : dot_S8192x128_S128x16_S8192x16_1_0_0_1_n_n.contr.Idx) : (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide),
    dif_pos (show (1 : Fin S128x16.rank) ∈ dot_S8192x128_S128x16_S8192x16_1_0_0_1_n_n.rhsNonContracting by decide)]
  rfl

/-- The second product at pixel `p` and channel `c`: the sum over the 128 hidden units. -/
theorem second_apply (l : FVec Ideal S8192x128 .bf16) (m : FVec Ideal S128x16 .bf16) (p : Fin 8192) (k : Fin 16) :
    matmul dot_S8192x128_S128x16_S8192x16_1_0_0_1_n_n none l m (constant (F := Ideal) S8192x16 .f32 0x00000000#32) (ix2 p k)
      = ∑ j : Fin 128, l (ix2 p j) * m (ix2 j k) := by
  refine (Ideal.matmul_constant_zero_apply dot_S8192x128_S128x16_S8192x16_1_0_0_1_n_n none l m (ix2 p k)).trans ?_
  rw [← Equiv.sum_comp (contrEquiv1 dot_S8192x128_S128x16_S8192x16_1_0_0_1_n_n 128 rfl rfl).symm]
  refine Finset.sum_congr rfl fun j _ => ?_
  have hj := contrEquiv1_symm_val dot_S8192x128_S128x16_S8192x16_1_0_0_1_n_n 128 rfl rfl j
  have el : dot_S8192x128_S128x16_S8192x16_1_0_0_1_n_n.lhsIdx (ix2 p k) ((contrEquiv1 dot_S8192x128_S128x16_S8192x16_1_0_0_1_n_n 128 rfl rfl).symm j) = ix2 p j :=
    funext fun a => Fin.ext (by
      match a with
      | ⟨0, _⟩ => exact second_l0 _ _
      | ⟨1, _⟩ => exact (second_l1 _ _).trans hj)
  have er : dot_S8192x128_S128x16_S8192x16_1_0_0_1_n_n.rhsIdx (ix2 p k) ((contrEquiv1 dot_S8192x128_S128x16_S8192x16_1_0_0_1_n_n 128 rfl rfl).symm j) = ix2 j k :=
    funext fun a => Fin.ext (by
      match a with
      | ⟨0, _⟩ => exact (second_r0 _ _).trans hj
      | ⟨1, _⟩ => exact second_r1 _ _)
  rw [el, er]

/-! ## The row of nine neighbours read from the three blocks -/

/-- The pixel row `di - 1` lines from row `r` of the tile, at column `w` and channel `c`: from the tile itself where
    that row is inside it, from the single row above the tile for the line above row 0, from the single row below it
    for the line below row 31. -/
def rowAt (v0 : Vec Ideal S1x32x256x16 .f32) (v2 v4 : Vec Ideal S1x1x256x16 .f32) (di : Fin 3) (r : Fin 32) (w : Fin 256)
    (c : Fin 16) : EReal :=
  match di with
  | 0 => if r.val = 0 then v2 (ix4 (0 : Fin 1) (0 : Fin 1) w c) else v0 (ix4 (0 : Fin 1) (⟨r.val - 1, by omega⟩ : Fin 32) w c)
  | 1 => v0 (ix4 (0 : Fin 1) r w c)
  | 2 => if h : r.val = 31 then v4 (ix4 (0 : Fin 1) (0 : Fin 1) w c) else v0 (ix4 (0 : Fin 1) (⟨r.val + 1, by omega⟩ : Fin 32) w c)

/-- Entry `j` of the 144-wide row of neighbours of pixel `(r, w)` of the tile: neighbour `j / 16` (row-major over the
    3 × 3 offsets), channel `j % 16`; the columns wrap around the ring of 256. -/
def blockTap (v0 : Vec Ideal S1x32x256x16 .f32) (v2 v4 : Vec Ideal S1x1x256x16 .f32) (r : Fin 32) (w : Fin 256)
    (j : Fin 144) : EReal :=
  rowAt v0 v2 v4 (⟨j.val / 16 / 3, by omega⟩ : Fin 3) r (Cert.Spec.nb (⟨j.val / 16 % 3, by omega⟩ : Fin 3) w)
    (⟨j.val % 16, Nat.mod_lt _ (by decide)⟩ : Fin 16)

/-- The tile of rows above (0), the tile itself (1), the tile of rows below (2), as the program builds them. -/
def rowTile (v0 : Vec Ideal S1x32x256x16 .f32) (v2 v4 : Vec Ideal S1x1x256x16 .f32) : Fin 3 → FVec Ideal S32x256x16 .f32
  | 0 => concatenate S32x256x16 0 [⟨S1x256x16, shapeCast S1x256x16 v2 shapeCasts_S1x1x256x16_S1x256x16⟩,
      ⟨S31x256x16, extractStridedSlice S31x256x16 ![0, 0, 0] (shapeCast S32x256x16 v0 shapeCasts_S1x32x256x16_S32x256x16)
        slices_S32x256x16_o0_0_0_S31x256x16⟩] concatenates_S1x256x16_S31x256x16_S32x256x16_d0
  | 1 => shapeCast S32x256x16 v0 shapeCasts_S1x32x256x16_S32x256x16
  | 2 => concatenate S32x256x16 0 [⟨S31x256x16, extractStridedSlice S31x256x16 ![1, 0, 0]
        (shapeCast S32x256x16 v0 shapeCasts_S1x32x256x16_S32x256x16) slices_S32x256x16_o1_0_0_S31x256x16⟩,
      ⟨S1x256x16, shapeCast S1x256x16 v4 shapeCasts_S1x1x256x16_S1x256x16⟩] concatenates_S31x256x16_S1x256x16_S32x256x16_d0

/-- A tile moved one column to the right (0), left alone (1), moved one column to the left (2), around the ring. -/
def colShift (dj : Fin 3) (x : FVec Ideal S32x256x16 .f32) : FVec Ideal S32x256x16 .f32 :=
  match dj with
  | 0 => dynamicRotate 1 1#32 none x rotates_S32x256x16_d1
  | 1 => x
  | 2 => dynamicRotate 1 255#32 none x rotates_S32x256x16_d1

theorem rowTile_apply (v0 : Vec Ideal S1x32x256x16 .f32) (v2 v4 : Vec Ideal S1x1x256x16 .f32) (di : Fin 3) (r : Fin 32)
    (w : Fin 256) (c : Fin 16) : rowTile v0 v2 v4 di (ix3 r w c) = rowAt v0 v2 v4 di r w c := by
  match di with
  | 0 =>
    refine (above_apply _ _ slices_S32x256x16_o0_0_0_S31x256x16 concatenates_S1x256x16_S31x256x16_S32x256x16_d0 r w c).trans ?_
    show (if r.val = 0 then _ else _) = if r.val = 0 then _ else _
    split
    · exact shapeCast_1abc_abc_apply v2 shapeCasts_S1x1x256x16_S1x256x16 _ w c
    · exact shapeCast_1abc_abc_apply v0 shapeCasts_S1x32x256x16_S32x256x16 _ w c
  | 1 => exact shapeCast_1abc_abc_apply v0 shapeCasts_S1x32x256x16_S32x256x16 r w c
  | 2 =>
    refine (below_apply _ _ slices_S32x256x16_o1_0_0_S31x256x16 concatenates_S31x256x16_S1x256x16_S32x256x16_d0 r w c).trans ?_
    show (if h : r.val = 31 then _ else _) = if h : r.val = 31 then _ else _
    split
    · exact shapeCast_1abc_abc_apply v4 shapeCasts_S1x1x256x16_S1x256x16 _ w c
    · exact shapeCast_1abc_abc_apply v0 shapeCasts_S1x32x256x16_S32x256x16 _ w c

theorem colShift_apply (dj : Fin 3) (x : FVec Ideal S32x256x16 .f32) (r : Fin 32) (w : Fin 256) (c : Fin 16) :
    colShift dj x (ix3 r w c) = x (ix3 r (Cert.Spec.nb dj w) c) := by
  match dj with
  | 0 => exact rotate_one x rotates_S32x256x16_d1 r w c
  | 1 => exact congrArg (fun q => x (ix3 r q c)) (nb_one w).symm
  | 2 => exact rotate_last x rotates_S32x256x16_d1 r w c

/-- The nine neighbour tiles laid side by side along the channels, as the program builds them. -/
def taps (v0 : Vec Ideal S1x32x256x16 .f32) (v2 v4 : Vec Ideal S1x1x256x16 .f32) : FVec Ideal S32x256x144 .f32 :=
  concatenate S32x256x144 2 [⟨S32x256x16, colShift 0 (rowTile v0 v2 v4 0)⟩, ⟨S32x256x16, colShift 1 (rowTile v0 v2 v4 0)⟩,
    ⟨S32x256x16, colShift 2 (rowTile v0 v2 v4 0)⟩, ⟨S32x256x16, colShift 0 (rowTile v0 v2 v4 1)⟩,
    ⟨S32x256x16, colShift 1 (rowTile v0 v2 v4 1)⟩, ⟨S32x256x16, colShift 2 (rowTile v0 v2 v4 1)⟩,
    ⟨S32x256x16, colShift 0 (rowTile v0 v2 v4 2)⟩, ⟨S32x256x16, colShift 1 (rowTile v0 v2 v4 2)⟩,
    ⟨S32x256x16, colShift 2 (rowTile v0 v2 v4 2)⟩]
    concatenates_S32x256x16_S32x256x16_S32x256x16_S32x256x16_S32x256x16_S32x256x16_S32x256x16_S32x256x16_S32x256x16_S32x256x144_d2

theorem taps_apply (v0 : Vec Ideal S1x32x256x16 .f32) (v2 v4 : Vec Ideal S1x1x256x16 .f32) (r : Fin 32) (w : Fin 256)
    (j : Fin 144) : taps v0 v2 v4 (ix3 r w j) = blockTap v0 v2 v4 r w j := by
  refine (beside_apply _ _ _ _ _ _ _ _ _ _ r w j).trans ?_
  have key : ∀ t : Fin 9, (![colShift 0 (rowTile v0 v2 v4 0), colShift 1 (rowTile v0 v2 v4 0), colShift 2 (rowTile v0 v2 v4 0),
      colShift 0 (rowTile v0 v2 v4 1), colShift 1 (rowTile v0 v2 v4 1), colShift 2 (rowTile v0 v2 v4 1),
      colShift 0 (rowTile v0 v2 v4 2), colShift 1 (rowTile v0 v2 v4 2), colShift 2 (rowTile v0 v2 v4 2)]
        : Fin 9 → FVec Ideal S32x256x16 .f32) t
      = colShift (⟨t.val % 3, Nat.mod_lt _ (by decide)⟩ : Fin 3) (rowTile v0 v2 v4 (⟨t.val / 3, by omega⟩ : Fin 3)) := by
    intro t; fin_cases t <;> rfl
  rw [key]
  refine (colShift_apply _ _ r w _).trans ?_
  exact rowTile_apply v0 v2 v4 _ r _ _

/-! ## The whole body at an index -/

/-- Pixel `(r, w)` of the tile in the row-by-row count. -/
def pix (r : Fin 32) (w : Fin 256) : Fin 8192 := ⟨r.val * 256 + w.val, by omega⟩

/-- The rectified first layer over the counted pixels, as the program builds it. -/
def hidden (v0 : Vec Ideal S1x32x256x16 .f32) (v2 v4 : Vec Ideal S1x1x256x16 .f32) (v19 : Vec Ideal S144x128 .bf16) :
    FVec Ideal S8192x128 .bf16 :=
  truncf .bf16 (maximumf (matmul dot_S8192x144_S144x128_S8192x128_1_0_0_1_n_n none
      (truncf .bf16 (shapeCast S8192x144 (taps v0 v2 v4) shapeCasts_S32x256x144_S8192x144) bitsLt_bf16_f32)
      (shapeCast S144x128 v19 shapeCasts_S144x128_S144x128 : FVec Ideal S144x128 .bf16) (constant (F := Ideal) S8192x128 .f32 0x00000000#32))
    (broadcast S8192x128 (Scalar.ofBits (F := Ideal) .f32 0x00000000#32))) bitsLt_bf16_f32

/-- The body's arithmetic is the second product of the rectified first layer, recounted as a tile. -/
theorem pay2_eq (v0 : Vec Ideal S1x32x256x16 .f32) (v2 v4 : Vec Ideal S1x1x256x16 .f32) (v19 : Vec Ideal S144x128 .bf16)
    (v25 : Vec Ideal S128x16 .bf16) :
    k0_pay2 (F := Ideal) v0 v2 v4 v19 v25
      = shapeCast S32x256x16 (matmul dot_S8192x128_S128x16_S8192x16_1_0_0_1_n_n none (hidden v0 v2 v4 v19)
          (shapeCast S128x16 v25 shapeCasts_S128x16_S128x16 : FVec Ideal S128x16 .bf16) (constant (F := Ideal) S8192x16 .f32 0x00000000#32))
          shapeCasts_S8192x16_S32x256x16 := rfl

theorem hidden_apply (v0 : Vec Ideal S1x32x256x16 .f32) (v2 v4 : Vec Ideal S1x1x256x16 .f32) (v19 : Vec Ideal S144x128 .bf16)
    (r : Fin 32) (w : Fin 256) (k : Fin 128) :
    hidden v0 v2 v4 v19 (ix2 (pix r w) k) = max (∑ j : Fin 144, blockTap v0 v2 v4 r w j * v19 (ix2 j k)) 0 := by
  show max (matmul dot_S8192x144_S144x128_S8192x128_1_0_0_1_n_n none _ _
      (constant (F := Ideal) S8192x128 .f32 0x00000000#32) (ix2 (pix r w) k)) (Ideal.ofBits .f32 0x00000000#32) = _
  refine congrArg₂ max ((first_apply _ _ (pix r w) k).trans (Finset.sum_congr rfl fun j _ => ?_)) Ideal.ofBits_zero_f32
  refine congrArg₂ (· * ·) ?_ (congrFun (shapeCast_self v19 shapeCasts_S144x128_S144x128) (ix2 j k))
  show shapeCast S8192x144 (taps v0 v2 v4) shapeCasts_S32x256x144_S8192x144 (ix2 (pix r w) j) = _
  refine (flatten_apply (taps v0 v2 v4) shapeCasts_S32x256x144_S8192x144 (pix r w) j).trans ?_
  refine Eq.trans (congrArg₂ (fun a b => taps v0 v2 v4 (ix3 a b j)) (Fin.ext ?_) (Fin.ext ?_)) (taps_apply v0 v2 v4 r w j)
  · show (r.val * 256 + w.val) / 256 = r.val; omega
  · show (r.val * 256 + w.val) % 256 = w.val; omega

/-- **The body at an index**: the value stored at pixel `(r, w)`, channel `c` of the output block is the 144 neighbour
    channels times the first table, rectified, times the second table. -/
theorem payload_apply (v0 : Vec Ideal S1x32x256x16 .f32) (v2 v4 : Vec Ideal S1x1x256x16 .f32) (v19 : Vec Ideal S144x128 .bf16)
    (v25 : Vec Ideal S128x16 .bf16) (r : Fin 32) (w : Fin 256) (c : Fin 16) :
    k0_pay1 (k0_pay2 (F := Ideal) v0 v2 v4 v19 v25) (ix4 (0 : Fin 1) r w c)
      = ∑ k : Fin 128, max (∑ j : Fin 144, blockTap v0 v2 v4 r w j * v19 (ix2 j k)) 0 * v25 (ix2 k c) := by
  rw [pay2_eq]
  unfold k0_pay1
  refine (shapeCast_abc_1abc_apply (α := EReal) _ shapeCasts_S32x256x16_S1x32x256x16 (0 : Fin 1) r w c).trans ?_
  refine (unflatten_apply _ shapeCasts_S8192x16_S32x256x16 r w c).trans ?_
  refine (second_apply _ _ (pix r w) c).trans (Finset.sum_congr rfl fun k _ => ?_)
  exact congrArg₂ (· * ·) (hidden_apply v0 v2 v4 v19 r w k) (congrFun (shapeCast_self v25 shapeCasts_S128x16_S128x16) (ix2 k c))

/-! ## The blocks as windows of the whole array -/

section Whole
variable (X : Cert.Spec.SX.Idx → EReal) (b : Fin 16) (ht : Fin 8)
  (v0 : Vec Ideal S1x32x256x16 .f32) (v2 v4 : Vec Ideal S1x1x256x16 .f32)
  (h0 : ∀ (r : Fin 32) (w : Fin 256) (c : Fin 16),
    v0 (ix4 (0 : Fin 1) r w c) = X (ix4 b (⟨32 * ht.val + r.val, by omega⟩ : Fin 256) w c))
  (h2 : ∀ (w : Fin 256) (c : Fin 16),
    v2 (ix4 (0 : Fin 1) (0 : Fin 1) w c) = X (ix4 b (⟨(32 * ht.val + 255) % 256, Nat.mod_lt _ (by decide)⟩ : Fin 256) w c))
  (h4 : ∀ (w : Fin 256) (c : Fin 16),
    v4 (ix4 (0 : Fin 1) (0 : Fin 1) w c) = X (ix4 b (⟨(32 * ht.val + 32) % 256, Nat.mod_lt _ (by decide)⟩ : Fin 256) w c))
include h0 h2 h4

/-- When the main block is rows `32 ht … 32 ht + 31` of image `b` and the two single rows are the rows just before and
    just after them around the ring, the row `di - 1` lines from row `r` of the tile is the array's row
    `nb di (32 ht + r)`. -/
theorem rowAt_eq (di : Fin 3) (r : Fin 32) (w : Fin 256) (c : Fin 16) :
    rowAt v0 v2 v4 di r w c = X (ix4 b (Cert.Spec.nb di (⟨32 * ht.val + r.val, by omega⟩ : Fin 256)) w c) := by
  match di with
  | 0 =>
    show (if r.val = 0 then _ else _) = _
    split
    · next hr =>
      exact (h2 w c).trans (congrArg (fun q => X (ix4 b q w c)) (Fin.ext (by
        show (32 * ht.val + 255) % 256 = (32 * ht.val + r.val + 255 + 0) % 256; omega)))
    · next hr =>
      exact (h0 _ w c).trans (congrArg (fun q => X (ix4 b q w c)) (Fin.ext (by
        show 32 * ht.val + (r.val - 1) = (32 * ht.val + r.val + 255 + 0) % 256; omega)))
  | 1 =>
    exact (h0 r w c).trans (congrArg (fun q => X (ix4 b q w c)) (Fin.ext (by
      show 32 * ht.val + r.val = (32 * ht.val + r.val + 255 + 1) % 256; omega)))
  | 2 =>
    show (if h : r.val = 31 then _ else _) = _
    split
    · next hr =>
      exact (h4 w c).trans (congrArg (fun q => X (ix4 b q w c)) (Fin.ext (by
        show (32 * ht.val + 32) % 256 = (32 * ht.val + r.val + 255 + 2) % 256; omega)))
    · next hr =>
      exact (h0 _ w c).trans (congrArg (fun q => X (ix4 b q w c)) (Fin.ext (by
        show 32 * ht.val + (r.val + 1) = (32 * ht.val + r.val + 255 + 2) % 256; omega)))

/-- The tile's row of neighbours is the array's row of neighbours at the pixel. -/
theorem blockTap_eq_tapv (r : Fin 32) (w : Fin 256) (j : Fin 144) :
    blockTap v0 v2 v4 r w j = Cert.Spec.tapv X b (⟨32 * ht.val + r.val, by omega⟩ : Fin 256) w j :=
  rowAt_eq X b ht v0 v2 v4 h0 h2 h4 _ r _ _

/-- **The body computes the specification's pipeline on its window**: at pixel `(r, w)`, channel `c` of the block it
    stores what `Kmid` of the whole array and the two tables gives at image `b`, row `32 ht + r`. -/
theorem payload_eq_Kmid (v19 : Vec Ideal S144x128 .bf16) (v25 : Vec Ideal S128x16 .bf16) (r : Fin 32) (w : Fin 256) (c : Fin 16) :
    k0_pay1 (k0_pay2 (F := Ideal) v0 v2 v4 v19 v25) (ix4 (0 : Fin 1) r w c)
      = Cert.Spec.Kmid X v19 v25 (ix4 b (⟨32 * ht.val + r.val, by omega⟩ : Fin 256) w c) := by
  rw [payload_apply]
  show _ = ∑ k : Fin 128, max (∑ j : Fin 144, Cert.Spec.tapv X b (⟨32 * ht.val + r.val, by omega⟩ : Fin 256) w j * v19 (ix2 j k)) 0
    * v25 (ix2 k c)
  refine Finset.sum_congr rfl fun k _ => ?_
  refine congrArg (fun t => max t 0 * v25 (ix2 k c)) (Finset.sum_congr rfl fun j _ => ?_)
  rw [blockTap_eq_tapv X b ht v0 v2 v4 h0 h2 h4 r w j]

end Whole

end Cert.KernelIdeal.KerValue

end
-- ==== Proof.KerFinal.lean ====
/-
  From blocks to the whole result array, at the extended reals.

  Grid point `t` is grid `t / 8`, row tile `t % 8`. Its output block is the 32 image rows `32·(t % 8) …` of that
  grid; its three state windows are those 32 rows and the single rows `32·(t % 8) − 1` and `32·(t % 8) + 32`,
  taken around the torus; the two weight tables are staged whole. So what point `t` writes back is block `t` of ONE
  whole-array function, `Kmid` of the state array and the two tables as the region finds them, and the 128 blocks
  tile the result array.
-/
import proofs.«110589_j15324443312135_2_alg».proof.Proof.KernelIdealFrame
import proofs.«110589_j15324443312135_2_alg».proof.Proof.Payload
import Idealize.ShloMosaic.Lib.Pipeline.Value

set_option maxRecDepth 16384

noncomputable section

namespace Cert.KernelIdeal.KerFinal

open Cert.KernelIdeal Cert.KernelIdeal.Gen Cert.KernelIdeal.Gen.Hand Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps in closed form, decided over the 128 grid points. -/
theorem idx_facts : ∀ t : Fin cfg0.N,
    win0_0.index t (0 : Fin 4) = t.val / 8 ∧ win0_0.index t (1 : Fin 4) = t.val % 8 ∧ win0_0.index t (2 : Fin 4) = 0 ∧ win0_0.index t (3 : Fin 4) = 0
    ∧ win0_1.index t (0 : Fin 4) = t.val / 8 ∧ win0_1.index t (1 : Fin 4) = (32 * (t.val % 8) + 255) % 256 ∧ win0_1.index t (2 : Fin 4) = 0 ∧ win0_1.index t (3 : Fin 4) = 0
    ∧ win0_2.index t (0 : Fin 4) = t.val / 8 ∧ win0_2.index t (1 : Fin 4) = (32 * (t.val % 8) + 32) % 256 ∧ win0_2.index t (2 : Fin 4) = 0 ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = t.val / 8 ∧ win0_5.index t (1 : Fin 4) = t.val % 8 ∧ win0_5.index t (2 : Fin 4) = 0 ∧ win0_5.index t (3 : Fin 4) = 0 :=
  (by decide +kernel : ∀ t : Fin grid0.N, _)

/-- Every (grid, row tile) is some point's. -/
theorem idx_onto : ∀ (q0 : Fin 16) (q1 : Fin 8), ∃ t : Fin cfg0.N, win0_5.index t = ![q0.val, q1.val, 0, 0] :=
  (by decide +kernel : ∀ (q0 : Fin 16) (q1 : Fin 8), ∃ t : Fin grid0.N, win0_5.index t = ![q0.val, q1.val, 0, 0])

set_option maxHeartbeats 4000000 in
/-- What one grid point computes, over ANY contents of the three arrays it stages: the body's store over the five
    blocks read at point `t` is block `t` of `Kmid` of the whole arrays. -/
theorem point_eq (c : Dev nD) (X : Buf (Elt Ideal) ((c : Thread nD τ).loc main_arg0)) (We : Buf (Elt Ideal) ((c : Thread nD τ).loc main_v79))
    (Wt : Buf (Elt Ideal) ((c : Thread nD τ).loc main_v81)) (t : Fin cfg0.N) :
    (cfg0.win 5).cut (grid0.coords t) (out0_5 (F := Ideal) (((cfg0.win 0).blk t).view.read (Elt Ideal) X) (((cfg0.win 1).blk t).view.read (Elt Ideal) X)
        (((cfg0.win 2).blk t).view.read (Elt Ideal) X) (((cfg0.win 3).blk t).view.read (Elt Ideal) We) (((cfg0.win 4).blk t).view.read (Elt Ideal) Wt))
      = ((cfg0.win 5).blk t).view.read (Elt Ideal) (Cert.Spec.Kmid X We Wt) := by
  unfold out0_5
  rw [View.canon_unit_zero hz4]
  simp only [View.ld_unit_zero (S := S1x32x256x16) hz4, View.ld_unit_zero (S := S1x1x256x16) hz4,
    View.ld_unit_zero (S := S144x128) hz2, View.ld_unit_zero (S := S128x16) hz2]
  obtain ⟨a0, a1, a2, a3, b0, b1, b2, b3, c0, c1, c2, c3, d0, d1, e0, e1, f0, f1, f2, f3⟩ := idx_facts t
  have ht : t.val < 128 := t.isLt
  funext j
  obtain ⟨z, r, w, ch, rfl⟩ : ∃ (z : Fin 1) (r : Fin 32) (w : Fin 256) (ch : Fin 16), j = ix4 z r w ch :=
    ⟨j 0, j 1, j 2, j 3, eq_ix4 j⟩
  obtain rfl : z = 0 := Subsingleton.elim _ _
  have hr : r.val < 32 := r.isLt
  have hw : w.val < 256 := w.isLt
  have hch : ch.val < 16 := ch.isLt
  show k0_pay1 (k0_pay2 (F := Ideal) (((cfg0.win 0).blk t).view.read (Elt Ideal) X) (((cfg0.win 1).blk t).view.read (Elt Ideal) X)
        (((cfg0.win 2).blk t).view.read (Elt Ideal) X) (((cfg0.win 3).blk t).view.read (Elt Ideal) We) (((cfg0.win 4).blk t).view.read (Elt Ideal) Wt)) (ix4 (0 : Fin 1) r w ch)
    = Cert.Spec.Kmid X We Wt (((cfg0.win 5).blk t).view.emb (ix4 (0 : Fin 1) r w ch))
  have e5 : ((cfg0.win 5).blk t).view.emb (ix4 (0 : Fin 1) r w ch)
      = ix4 (⟨t.val / 8, by omega⟩ : Fin 16) (⟨32 * (⟨t.val % 8, by omega⟩ : Fin 8).val + r.val, by omega⟩ : Fin 256) w ch := by
    funext a; apply Fin.ext
    match a with
    | ⟨0, _⟩ => show win0_5.index t (0 : Fin 4) * 1 + 1 * 0 = t.val / 8; omega
    | ⟨1, _⟩ => show win0_5.index t (1 : Fin 4) * 32 + 1 * r.val = 32 * (t.val % 8) + r.val; omega
    | ⟨2, _⟩ => show win0_5.index t (2 : Fin 4) * 256 + 1 * w.val = w.val; omega
    | ⟨3, _⟩ => show win0_5.index t (3 : Fin 4) * 16 + 1 * ch.val = ch.val; omega
  rw [e5]
  have h3 : ((cfg0.win 3).blk t).view.read (Elt Ideal) We = We := by
    funext y
    show We (((cfg0.win 3).blk t).view.emb y) = We y
    congr 1; funext a; apply Fin.ext
    match a with
    | ⟨0, _⟩ => show win0_3.index t (0 : Fin 2) * 144 + 1 * (y 0).val = (y 0).val; omega
    | ⟨1, _⟩ => show win0_3.index t (1 : Fin 2) * 128 + 1 * (y 1).val = (y 1).val; omega
  have h4 : ((cfg0.win 4).blk t).view.read (Elt Ideal) Wt = Wt := by
    funext y
    show Wt (((cfg0.win 4).blk t).view.emb y) = Wt y
    congr 1; funext a; apply Fin.ext
    match a with
    | ⟨0, _⟩ => show win0_4.index t (0 : Fin 2) * 128 + 1 * (y 0).val = (y 0).val; omega
    | ⟨1, _⟩ => show win0_4.index t (1 : Fin 2) * 16 + 1 * (y 1).val = (y 1).val; omega
  rw [h3, h4]
  refine Cert.KernelIdeal.KerValue.payload_eq_Kmid X (⟨t.val / 8, by omega⟩ : Fin 16) (⟨t.val % 8, by omega⟩ : Fin 8)
    (((cfg0.win 0).blk t).view.read (Elt Ideal) X) (((cfg0.win 1).blk t).view.read (Elt Ideal) X) (((cfg0.win 2).blk t).view.read (Elt Ideal) X) ?_ ?_ ?_ We Wt r w ch
  · intro r' w' c'
    have hr' : r'.val < 32 := r'.isLt
    show X (((cfg0.win 0).blk t).view.emb (ix4 (0 : Fin 1) r' w' c')) = _
    congr 1; funext a; apply Fin.ext
    match a with
    | ⟨0, _⟩ => show win0_0.index t (0 : Fin 4) * 1 + 1 * 0 = t.val / 8; omega
    | ⟨1, _⟩ => show win0_0.index t (1 : Fin 4) * 32 + 1 * r'.val = 32 * (t.val % 8) + r'.val; omega
    | ⟨2, _⟩ => show win0_0.index t (2 : Fin 4) * 256 + 1 * w'.val = w'.val; omega
    | ⟨3, _⟩ => show win0_0.index t (3 : Fin 4) * 16 + 1 * c'.val = c'.val; omega
  · intro w' c'
    show X (((cfg0.win 1).blk t).view.emb (ix4 (0 : Fin 1) (0 : Fin 1) w' c')) = _
    congr 1; funext a; apply Fin.ext
    match a with
    | ⟨0, _⟩ => show win0_1.index t (0 : Fin 4) * 1 + 1 * 0 = t.val / 8; omega
    | ⟨1, _⟩ => show win0_1.index t (1 : Fin 4) * 1 + 1 * 0 = (32 * (t.val % 8) + 255) % 256; omega
    | ⟨2, _⟩ => show win0_1.index t (2 : Fin 4) * 256 + 1 * w'.val = w'.val; omega
    | ⟨3, _⟩ => show win0_1.index t (3 : Fin 4) * 16 + 1 * c'.val = c'.val; omega
  · intro w' c'
    show X (((cfg0.win 2).blk t).view.emb (ix4 (0 : Fin 1) (0 : Fin 1) w' c')) = _
    congr 1; funext a; apply Fin.ext
    match a with
    | ⟨0, _⟩ => show win0_2.index t (0 : Fin 4) * 1 + 1 * 0 = t.val / 8; omega
    | ⟨1, _⟩ => show win0_2.index t (1 : Fin 4) * 1 + 1 * 0 = (32 * (t.val % 8) + 32) % 256; omega
    | ⟨2, _⟩ => show win0_2.index t (2 : Fin 4) * 256 + 1 * w'.val = w'.val; omega
    | ⟨3, _⟩ => show win0_2.index t (3 : Fin 4) * 16 + 1 * c'.val = c'.val; omega

/-- The result array as one function of the arrays the region finds. -/
def Gmid (c : Dev nD) : Buf (Elt Ideal) ((c : Thread nD τ).loc main_v82) :=
  Cert.Spec.Kmid (V m c (Pipeline.arrRef spec0 0)) (V m c (Pipeline.arrRef spec0 3)) (V m c (Pipeline.arrRef spec0 4))

/-- What point `t` writes back is block `t` of `Gmid`. -/
theorem flushed5_eq (c : Dev nD) (t : Fin cfg0.N) :
    (dats m 0 c).flushed 5 t = ((cfg0.win 5).blk t).view.read (Elt Ideal) (Gmid m c) := by
  show (cfg0.win 5).cut (grid0.coords t) ((dats m 0 c).after 5 t) = _
  rw [after0_5]
  exact point_eq c (V m c (Pipeline.arrRef spec0 0)) (V m c (Pipeline.arrRef spec0 3)) (V m c (Pipeline.arrRef spec0 4)) t

/-- An index of the result array is in point `t`'s block iff each coordinate is in the block's range. -/
theorem mem_blk5 (t : Fin cfg0.N) (i : S16x256x256x16.Idx) :
    i ∈ ((cfg0.win 5).blk t).view.set ↔ ∀ a : Fin 4, win0_5.index t a * S1x32x256x16.size a ≤ (i a).val ∧ (i a).val < win0_5.index t a * S1x32x256x16.size a + S1x32x256x16.size a := by
  show i ∈ ((View.whole main_v82).slice (win0_5.rect t)).set ↔ _
  rw [View.set_slice_whole, Rect.mem_set_unit]
  exact Iff.rfl

/-- The 128 blocks tile the result array. -/
theorem cover5 (i : S16x256x256x16.Idx) : ∃ t : Fin cfg0.N, (cfg0.win 5).flush t = true ∧ i ∈ ((cfg0.win 5).blk t).view.set := by
  have hi0 : (i 0).val < 16 := (i 0).isLt
  have hi1 : (i 1).val < 256 := (i 1).isLt
  have hi2 : (i 2).val < 256 := (i 2).isLt
  have hi3 : (i 3).val < 16 := (i 3).isLt
  obtain ⟨t, ht⟩ := idx_onto ⟨(i 0).val, hi0⟩ ⟨(i 1).val / 32, by omega⟩
  have q0 : win0_5.index t (0 : Fin 4) = (i 0).val := congrFun ht 0
  have q1 : win0_5.index t (1 : Fin 4) = (i 1).val / 32 := congrFun ht 1
  have q2 : win0_5.index t (2 : Fin 4) = 0 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 256 ≤ (i 2).val ∧ (i 2).val < win0_5.index t (2 : Fin 4) * 256 + 256; omega
  | ⟨3, _⟩ => show win0_5.index t (3 : Fin 4) * 16 ≤ (i 3).val ∧ (i 3).val < win0_5.index t (3 : Fin 4) * 16 + 16; omega

/-- The result array after the run. -/
theorem final5 (c : Dev nD) : (dats m 0 c).arrAt 5 cfg0.N = Gmid m c :=
  (dats m 0 c).arrAt_eq_of_cover 5 (Gmid m c) (fun t _ => flushed5_eq m c t) cover5

end Cert.KernelIdeal.KerFinal

end
-- ==== Proof.HostWeights.lean ====
/-
  The two weight tables the kernel is handed, as the host computes them before the call.

  From the 128 × 48 first-layer matrix the host cuts the three groups of 16 columns (the weights of the Sobel
  x-response, of the Sobel y-response and of the state itself), transposes each to 16 × 128, and for each of the nine
  neighbours forms coefficient × group, summed over the three groups, with that neighbour's Sobel and identity
  coefficients; the nine 16 × 128 blocks are stacked into the 144 × 128 table. Read at row `j` and column `k` this is the
  specification's `weff`: neighbour `j / 16`, channel `j % 16`. The second table is the 16 × 128 second-layer matrix
  transposed, the specification's `woT`. The change of float format after each is the identity on extended reals.
-/
import proofs.«110589_j15324443312135_2_alg».proof.Proof.Spec
import proofs.«110589_j15324443312135_2_alg».proof.Proof.Gen.KernelIdeal.Launch
import Idealize.ShloMosaic.Lib.ValueLayout
import Idealize.ShloMosaic.Lib.StableHlo.Run

noncomputable section

open scoped BigOperators

namespace Cert.KernelIdeal.HostWeights

open Idealize.ShloMosaic Idealize.ShloMosaic.ValueIdx Idealize.ShloMosaic.TcCoe Cert.KernelIdeal Cert.KernelIdeal.Gen

section Nine
variable {τ : Topo} {sig : RefSig} {Val : EltTy → Type}

/-- Nine values, one for each index. -/
def pick9 {β : Fin 9 → Type} (a0 : β 0) (a1 : β 1) (a2 : β 2) (a3 : β 3) (a4 : β 4) (a5 : β 5) (a6 : β 6) (a7 : β 7) (a8 : β 8) :
    (k : Fin 9) → β k
  | 0 => a0 | 1 => a1 | 2 => a2 | 3 => a3 | 4 => a4 | 5 => a5 | 6 => a6 | 7 => a7 | 8 => a8

section
variable {β : Fin 9 → Type} (a0 : β 0) (a1 : β 1) (a2 : β 2) (a3 : β 3) (a4 : β 4) (a5 : β 5) (a6 : β 6) (a7 : β 7) (a8 : β 8)
theorem pick9_0 : pick9 a0 a1 a2 a3 a4 a5 a6 a7 a8 0 = a0 := rfl
theorem pick9_1 : pick9 a0 a1 a2 a3 a4 a5 a6 a7 a8 1 = a1 := rfl
theorem pick9_2 : pick9 a0 a1 a2 a3 a4 a5 a6 a7 a8 2 = a2 := rfl
theorem pick9_3 : pick9 a0 a1 a2 a3 a4 a5 a6 a7 a8 3 = a3 := rfl
theorem pick9_4 : pick9 a0 a1 a2 a3 a4 a5 a6 a7 a8 4 = a4 := rfl
theorem pick9_5 : pick9 a0 a1 a2 a3 a4 a5 a6 a7 a8 5 = a5 := rfl
theorem pick9_6 : pick9 a0 a1 a2 a3 a4 a5 a6 a7 a8 6 = a6 := rfl
theorem pick9_7 : pick9 a0 a1 a2 a3 a4 a5 a6 a7 a8 7 = a7 := rfl
theorem pick9_8 : pick9 a0 a1 a2 a3 a4 a5 a6 a7 a8 8 = a8 := rfl
end

variable {x0 x1 x2 x3 x4 x5 x6 x7 x8 y : Ref sig .tc}

/-- An operation over a literal family of nine operands reads each operand's contents at its own reference. -/
theorem nary9_result'
    (f : ((k : Fin 9) → ((![x0, x1, x2, x3, x4, x5, x6, x7, x8] : Fin 9 → Ref sig .tc) k).ty.Contents Val) → y.ty.Contents Val)
    (hxs hy) (V : Valuation τ sig Val) :
    (StableHlo.nary (τ := τ) ![x0, x1, x2, x3, x4, x5, x6, x7, x8] y f hxs hy).result V (no_index (Proc.devRef .tc y))
      = f (pick9 (β := fun k => ((![x0, x1, x2, x3, x4, x5, x6, x7, x8] : Fin 9 → Ref sig .tc) k).ty.Contents Val)
          (V (Proc.devRef .tc x0)) (V (Proc.devRef .tc x1)) (V (Proc.devRef .tc x2)) (V (Proc.devRef .tc x3))
          (V (Proc.devRef .tc x4)) (V (Proc.devRef .tc x5)) (V (Proc.devRef .tc x6)) (V (Proc.devRef .tc x7))
          (V (Proc.devRef .tc x8))) := by
  rw [StableHlo.nary_result]; congr 1; funext k; fin_cases k <;> rfl

end Nine

/-! ## The folded table as a term, and the term read at an index -/

/-- One 16 × 128 block of the folded table: three coefficients times the transposes of the three groups of 16 columns
    of the 128 × 48 first-layer matrix, summed left to right. -/
def tapBlock (a b c : BitVec 32) (wh : FVec Ideal S128x48 .f32) : FVec Ideal S16x128 .f32 :=
  addf
    (addf
      (mulf (broadcastInDim S16x128 ![] bcast_S_S16x128 (constant (F := Ideal) S_ .f32 a))
        (transpose S16x128 [1, 0] (extractStridedSlice S128x16 ![0, 0] wh slices_S128x48_S128x16_0_0) transposes_S128x16_S16x128_1_0))
      (mulf (broadcastInDim S16x128 ![] bcast_S_S16x128 (constant (F := Ideal) S_ .f32 b))
        (transpose S16x128 [1, 0] (extractStridedSlice S128x16 ![0, 16] wh slices_S128x48_S128x16_0_16) transposes_S128x16_S16x128_1_0)))
    (mulf (broadcastInDim S16x128 ![] bcast_S_S16x128 (constant (F := Ideal) S_ .f32 c))
      (transpose S16x128 [1, 0] (extractStridedSlice S128x16 ![0, 32] wh slices_S128x48_S128x16_0_32) transposes_S128x16_S16x128_1_0))

/-- The nine blocks stacked, in the order of the nine neighbours. -/
def weffTerm (wh : FVec Ideal S128x48 .f32) : FVec Ideal S144x128 .bf16 :=
  truncf .bf16 (concatenate S144x128 0
    [⟨S16x128, tapBlock (Cert.Spec.cx 0) (Cert.Spec.cy 0) (Cert.Spec.cc 0) wh⟩, ⟨S16x128, tapBlock (Cert.Spec.cx 1) (Cert.Spec.cy 1) (Cert.Spec.cc 1) wh⟩,
     ⟨S16x128, tapBlock (Cert.Spec.cx 2) (Cert.Spec.cy 2) (Cert.Spec.cc 2) wh⟩, ⟨S16x128, tapBlock (Cert.Spec.cx 3) (Cert.Spec.cy 3) (Cert.Spec.cc 3) wh⟩,
     ⟨S16x128, tapBlock (Cert.Spec.cx 4) (Cert.Spec.cy 4) (Cert.Spec.cc 4) wh⟩, ⟨S16x128, tapBlock (Cert.Spec.cx 5) (Cert.Spec.cy 5) (Cert.Spec.cc 5) wh⟩,
     ⟨S16x128, tapBlock (Cert.Spec.cx 6) (Cert.Spec.cy 6) (Cert.Spec.cc 6) wh⟩, ⟨S16x128, tapBlock (Cert.Spec.cx 7) (Cert.Spec.cy 7) (Cert.Spec.cc 7) wh⟩,
     ⟨S16x128, tapBlock (Cert.Spec.cx 8) (Cert.Spec.cy 8) (Cert.Spec.cc 8) wh⟩]
    concatenates_S16x128_S16x128_S16x128_S16x128_S16x128_S16x128_S16x128_S16x128_S16x128_S144x128_d0) bitsLt_bf16_f32

/-- The transposed group of 16 columns starting at column `o`, at `(ch, k)`: the matrix at `(k, o + ch)`. -/
theorem colGroup_apply (o : Nat) (ho : o + 16 ≤ 48) (wh : FVec Ideal S128x48 .f32) (h : S128x48.Slices ![0, o] S128x16)
    (ht : S128x16.Transposes [1, 0] S16x128) (ch : Fin 16) (k : Fin 128) :
    transpose S16x128 [1, 0] (extractStridedSlice S128x16 ![0, o] wh h) ht (ix2 ch k)
      = wh (ix2 k (⟨o + ch.val, by omega⟩ : Fin 48)) :=
  (transpose_ix2_apply _ ht ch k).trans (extractStridedSlice_apply _ wh h _ _ fun a => match a with
    | ⟨0, _⟩ => (Nat.zero_add _).symm
    | ⟨1, _⟩ => rfl)

theorem tapBlock_apply (a b c : BitVec 32) (wh : FVec Ideal S128x48 .f32) (ch : Fin 16) (k : Fin 128) :
    tapBlock a b c wh (ix2 ch k)
      = (Ideal.ofBits .f32 a * wh (ix2 k (⟨ch.val, by omega⟩ : Fin 48))
          + Ideal.ofBits .f32 b * wh (ix2 k (⟨16 + ch.val, by omega⟩ : Fin 48)))
        + Ideal.ofBits .f32 c * wh (ix2 k (⟨32 + ch.val, by omega⟩ : Fin 48)) := by
  show (Ideal.ofBits .f32 a * _ + Ideal.ofBits .f32 b * _) + Ideal.ofBits .f32 c * _ = _
  rw [colGroup_apply 0 (by decide) wh slices_S128x48_S128x16_0_0 transposes_S128x16_S16x128_1_0 ch k,
    colGroup_apply 16 (by decide) wh slices_S128x48_S128x16_0_16 transposes_S128x16_S16x128_1_0 ch k,
    colGroup_apply 32 (by decide) wh slices_S128x48_S128x16_0_32 transposes_S128x16_S16x128_1_0 ch k]
  have e : (⟨0 + ch.val, by omega⟩ : Fin 48) = ⟨ch.val, by omega⟩ := Fin.ext (Nat.zero_add _)
  rw [e]

/-- Nine 16 × 128 blocks stacked: row `j` of the result is row `j % 16` of block `j / 16`. -/
theorem stack_apply {α : Type} (a0 a1 a2 a3 a4 a5 a6 a7 a8 : S16x128.Idx → α)
    (h : Shape.Concatenates [S16x128, S16x128, S16x128, S16x128, S16x128, S16x128, S16x128, S16x128, S16x128] S144x128 0)
    (j : Fin 144) (k : Fin 128) :
    concatenate S144x128 0 [⟨S16x128, a0⟩, ⟨S16x128, a1⟩, ⟨S16x128, a2⟩, ⟨S16x128, a3⟩, ⟨S16x128, a4⟩, ⟨S16x128, a5⟩,
        ⟨S16x128, a6⟩, ⟨S16x128, a7⟩, ⟨S16x128, a8⟩] h (ix2 j k)
      = (![a0, a1, a2, a3, a4, a5, a6, a7, a8] : Fin 9 → S16x128.Idx → α) (⟨j.val / 16, by omega⟩ : Fin 9)
          (ix2 (⟨j.val % 16, Nat.mod_lt _ (by decide)⟩ : Fin 16) k) :=
  concatenate_ofFn_apply (t := S144x128) (s₁ := S16x128) 0 (![a0, a1, a2, a3, a4, a5, a6, a7, a8] : Fin 9 → S16x128.Idx → α) h rfl 16 rfl
    (ix2 j k) (⟨j.val / 16, by omega⟩ : Fin 9) rfl (ix2 (⟨j.val % 16, Nat.mod_lt _ (by decide)⟩ : Fin 16) k) rfl
    fun b => match b with
      | ⟨0, _⟩ => fun hb => absurd rfl hb
      | ⟨1, _⟩ => fun _ => rfl

/-- The term is the specification's folded table. -/
theorem weffTerm_eq (wh : FVec Ideal S128x48 .f32) : (weffTerm wh : S144x128.Idx → EReal) = Cert.Spec.weff wh := by
  funext i
  obtain ⟨j, k, rfl⟩ : ∃ (j : Fin 144) (k : Fin 128), i = ix2 j k := ⟨i 0, i 1, eq_ix2 i⟩
  refine (stack_apply _ _ _ _ _ _ _ _ _
    concatenates_S16x128_S16x128_S16x128_S16x128_S16x128_S16x128_S16x128_S16x128_S16x128_S144x128_d0 j k).trans ?_
  have key : ∀ t : Fin 9, (![tapBlock (Cert.Spec.cx 0) (Cert.Spec.cy 0) (Cert.Spec.cc 0) wh, tapBlock (Cert.Spec.cx 1) (Cert.Spec.cy 1) (Cert.Spec.cc 1) wh,
      tapBlock (Cert.Spec.cx 2) (Cert.Spec.cy 2) (Cert.Spec.cc 2) wh, tapBlock (Cert.Spec.cx 3) (Cert.Spec.cy 3) (Cert.Spec.cc 3) wh,
      tapBlock (Cert.Spec.cx 4) (Cert.Spec.cy 4) (Cert.Spec.cc 4) wh, tapBlock (Cert.Spec.cx 5) (Cert.Spec.cy 5) (Cert.Spec.cc 5) wh,
      tapBlock (Cert.Spec.cx 6) (Cert.Spec.cy 6) (Cert.Spec.cc 6) wh, tapBlock (Cert.Spec.cx 7) (Cert.Spec.cy 7) (Cert.Spec.cc 7) wh,
      tapBlock (Cert.Spec.cx 8) (Cert.Spec.cy 8) (Cert.Spec.cc 8) wh] : Fin 9 → FVec Ideal S16x128 .f32) t
      = tapBlock (Cert.Spec.cx t) (Cert.Spec.cy t) (Cert.Spec.cc t) wh := by
    intro t; fin_cases t <;> rfl
  rw [key]
  exact tapBlock_apply _ _ _ wh _ k

/-! ## The host's operations, composed -/

/-- Two stacks of nine blocks are equal when the blocks are. -/
theorem stack_congr {α : Type} (a0 a1 a2 a3 a4 a5 a6 a7 a8 b0 b1 b2 b3 b4 b5 b6 b7 b8 : S16x128.Idx → α)
    (h : Shape.Concatenates [S16x128, S16x128, S16x128, S16x128, S16x128, S16x128, S16x128, S16x128, S16x128] S144x128 0)
    (e : (a0, a1, a2, a3, a4, a5, a6, a7, a8) = (b0, b1, b2, b3, b4, b5, b6, b7, b8)) :
    concatenate S144x128 0 [⟨S16x128, a0⟩, ⟨S16x128, a1⟩, ⟨S16x128, a2⟩, ⟨S16x128, a3⟩, ⟨S16x128, a4⟩, ⟨S16x128, a5⟩,
        ⟨S16x128, a6⟩, ⟨S16x128, a7⟩, ⟨S16x128, a8⟩] h
      = concatenate S144x128 0 [⟨S16x128, b0⟩, ⟨S16x128, b1⟩, ⟨S16x128, b2⟩, ⟨S16x128, b3⟩, ⟨S16x128, b4⟩, ⟨S16x128, b5⟩,
        ⟨S16x128, b6⟩, ⟨S16x128, b7⟩, ⟨S16x128, b8⟩] h := by
  simp only [Prod.mk.injEq] at e
  obtain ⟨rfl, rfl, rfl, rfl, rfl, rfl, rfl, rfl, rfl⟩ := e
  rfl

set_option maxHeartbeats 4000000 in
/-- What the host leaves in the first table's buffer: the nine stacked blocks over the first-layer matrix it was given. -/
theorem weff_host_term (W : Valuation τ sig (Elt Ideal)) :
    StableHlo.after (hostOps0 (F := Ideal)) W (Proc.devRef .tc main_v79) = weffTerm (W (Proc.devRef .tc main_arg1)) := by
  dsimp only [hostOps0]
  simp (disch := decide) only [StableHlo.after_cons, StableHlo.after_nil,
      StableHlo.nullary_result', StableHlo.unary_result', StableHlo.binary_result', nary9_result',
      StableHlo.nullary_result_ne', StableHlo.unary_result_ne', StableHlo.binary_result_ne', StableHlo.nary_result_ne']
  unfold weffTerm
  refine congrArg (fun z => (truncf .bf16 z bitsLt_bf16_f32 : FVec Ideal S144x128 .bf16))
    (stack_congr _ _ _ _ _ _ _ _ _ _ _ _ _ _ _ _ _ _ _ ?_)
  simp (disch := decide) only [pick9_0, pick9_1, pick9_2, pick9_3, pick9_4, pick9_5, pick9_6, pick9_7, pick9_8,
      StableHlo.nullary_result', StableHlo.unary_result', StableHlo.binary_result',
      StableHlo.nullary_result_ne', StableHlo.unary_result_ne', StableHlo.binary_result_ne', StableHlo.nary_result_ne']
  rfl

/-- What the host leaves in the second table's buffer: the second-layer matrix it was given, transposed. -/
theorem woT_host_term (W : Valuation τ sig (Elt Ideal)) :
    StableHlo.after (hostOps0 (F := Ideal)) W (Proc.devRef .tc main_v81)
      = (truncf .bf16 (transpose S128x16 [1, 0] (W (Proc.devRef .tc main_arg2) : FVec Ideal S16x128 .f32)
          transposes_S16x128_S128x16_1_0 : FVec Ideal S128x16 .f32) bitsLt_bf16_f32 : FVec Ideal S128x16 .bf16) := by
  dsimp only [hostOps0]
  simp (disch := decide) only [StableHlo.after_cons, StableHlo.after_nil,
      StableHlo.nullary_result', StableHlo.unary_result', StableHlo.binary_result',
      StableHlo.nullary_result_ne', StableHlo.unary_result_ne', StableHlo.binary_result_ne', StableHlo.nary_result_ne']

/-! ## The two tables the kernel is handed -/

/-- The first table is the specification's folded matrix of the first-layer matrix the program was given. -/
theorem weff_host (W : Valuation τ sig (Elt Ideal)) :
    (StableHlo.after (hostOps0 (F := Ideal)) W (Proc.devRef .tc main_v79) : S144x128.Idx → EReal)
      = Cert.Spec.weff (W (Proc.devRef .tc main_arg1)) :=
  (weff_host_term W).trans (weffTerm_eq _)

/-- The second table is the transpose of the second-layer matrix the program was given. -/
theorem woT_host (W : Valuation τ sig (Elt Ideal)) :
    (StableHlo.after (hostOps0 (F := Ideal)) W (Proc.devRef .tc main_v81) : S128x16.Idx → EReal)
      = Cert.Spec.woT (W (Proc.devRef .tc main_arg2)) := by
  rw [woT_host_term]
  funext i
  obtain ⟨k, c, rfl⟩ : ∃ (k : Fin 128) (c : Fin 16), i = ix2 k c := ⟨i 0, i 1, eq_ix2 i⟩
  exact transpose_ix2_apply (W (Proc.devRef .tc main_arg2) : FVec Ideal S16x128 .f32) transposes_S16x128_S128x16_1_0 k c

end Cert.KernelIdeal.HostWeights

end
-- ==== Proof.KernelRun.lean ====
/-
  The kernel's run, read: the result array ends at `Gker` of the three argument arrays.

  The region finds the state array as launched and the two weight tables as the host operations leave them: the
  folded table `weff` of the first-layer weights and the transpose of the second-layer weights. So the whole-array
  function the blocks tile, `Kmid` of what the region finds, is `Gker` of the arguments.
-/
import proofs.«110589_j15324443312135_2_alg».proof.Proof.KerFinal
import proofs.«110589_j15324443312135_2_alg».proof.Proof.HostWeights

noncomputable section

namespace Cert.KernelIdeal.KerRun

open Cert.KernelIdeal Cert.KernelIdeal.Gen Cert.KernelIdeal.Gen.Hand Cert.KernelIdeal.KerFinal Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem V_weff (c : Dev nD) : (V m c (Pipeline.arrRef spec0 3) : S144x128.Idx → EReal) = Cert.Spec.weff (m ((c : Thread nD τ).loc main_arg1)) :=
  Cert.KernelIdeal.HostWeights.weff_host (fun b => m (c, b))

theorem V_woT (c : Dev nD) : (V m c (Pipeline.arrRef spec0 4) : S128x16.Idx → EReal) = Cert.Spec.woT (m ((c : Thread nD τ).loc main_arg2)) :=
  Cert.KernelIdeal.HostWeights.woT_host (fun b => m (c, b))

theorem V_x (c : Dev nD) : V m c (Pipeline.arrRef spec0 0) = m ((c : Thread nD τ).loc main_arg0) := V_main_arg0 m c

/-- The whole-array function the blocks tile is `Gker` of the arguments. -/
theorem Gmid_eq (c : Dev nD) :
    Gmid m c = Cert.Spec.Gker (m ((c : Thread nD τ).loc main_arg0)) (m ((c : Thread nD τ).loc main_arg1)) (m ((c : Thread nD τ).loc main_arg2)) := by
  unfold Gmid Cert.Spec.Gker
  rw [V_x, V_weff, V_woT]

/-- Every execution of the kernel program terminates with the result array at `Gker` of the argument arrays, the
    arguments unchanged. -/
theorem run : θ_run defs (onTc (τ := τ) (main (F := Ideal))) ⟨m, fun _ => 0, ρ⟩ (fun r => ∀ c : Dev nD,
      r.2.mem ((c.tc : Thread nD τ).loc main_v82) = Cert.Spec.Gker (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 5).trans ((final5 m c).trans (Gmid_eq m c)),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c)⟩) (run_main m ρ)

end Cert.KernelIdeal.KerRun

end
-- ==== Proof.Algebra.lean ====
/-
  The algebraic law between the two arrangements of the first layer.

  At every pixel the nine raw neighbours times the folded 144 × 128 matrix equal the 48-channel perception vector
  times the 48 × 128 matrix: the Sobel responses are linear in the nine neighbours, so the coefficient of neighbour
  `t`, channel `c` in the hidden unit `k` is `cx t · Wh[k, c] + cy t · Wh[k, 16 + c] + cc t · Wh[k, 32 + c]`.
  Distributivity fails at the infinities of the extended reals, so the identity is proved in ℝ: the state and the
  first-layer weights are finite, every factor is the image of a real, and the real identity is a matter of
  expanding the nine neighbours.
-/
import proofs.«110589_j15324443312135_2_alg».proof.Proof.Spec
import Mathlib

noncomputable section

open scoped BigOperators

namespace Cert.Algebra

open Idealize.ShloMosaic Idealize.ShloMosaic.ValueIdx Cert.Spec

/-! ## The five f32 words of the Sobel coefficients as reals -/

theorem word_one : Ideal.ofBits .f32 0x3F800000#32 = ((1 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee]

/-! ## Sums over a product of two ranges, and over nine terms -/

/-- A sum over `m · n` positions, each read by its quotient and remainder, is the double sum. -/
theorem sum_split (m n : ℕ) {M : Type*} [AddCommMonoid M] (g : Fin m → Fin n → M) :
    ∑ j : Fin (m * n), g j.divNat j.modNat = ∑ t : Fin m, ∑ c : Fin n, g t c := by
  rw [← Fintype.sum_prod_type']
  exact Fintype.sum_equiv finProdFinEquiv.symm _ _ (fun j => rfl)

theorem sum_nine {M : Type*} [AddCommMonoid M] (f : Fin 9 → M) :
    ∑ t, f t = f 0 + f 1 + f 2 + f 3 + f 4 + f 5 + f 6 + f 7 + f 8 := by
  rw [Fin.sum_univ_succ, Fin.sum_univ_eight]
  simp only [add_assoc]
  rfl

/-! ## One channel: nine neighbours against the two Sobel responses and the centre -/

/-- For one channel, with `S di dj` the nine neighbours and `Wx`, `Wy`, `Wc` the three first-layer weights the
    channel meets: the nine neighbours times their folded coefficients are the Sobel x-response times `Wx`, the
    Sobel y-response times `Wy` and the centre times `Wc`. -/
theorem nine_taps (S : Fin 3 → Fin 3 → ℝ) (Wx Wy Wc : ℝ) :
    ∑ t : Fin 9, ((S ⟨t.val / 3, by omega⟩ ⟨t.val % 3, by omega⟩ : ℝ) : EReal)
        * ((Ideal.ofBits .f32 (cx t) * (Wx : EReal) + Ideal.ofBits .f32 (cy t) * (Wy : EReal))
            + Ideal.ofBits .f32 (cc t) * (Wc : EReal))
      = ((((S 0 2 : ℝ) : EReal) - (S 0 0 : ℝ)) + two * (((S 1 2 : ℝ) : EReal) - (S 1 0 : ℝ))
            + (((S 2 2 : ℝ) : EReal) - (S 2 0 : ℝ))) * (Wx : EReal)
        + ((((S 2 0 : ℝ) : EReal) - (S 0 0 : ℝ)) + two * (((S 2 1 : ℝ) : EReal) - (S 0 1 : ℝ))
            + (((S 2 2 : ℝ) : EReal) - (S 0 2 : ℝ))) * (Wy : EReal)
        + ((S 1 1 : ℝ) : EReal) * (Wc : EReal) := by
  rw [sum_nine]
  show ((S 0 0 : ℝ) : EReal) * ((Ideal.ofBits .f32 0xBF800000#32 * (Wx : EReal) + Ideal.ofBits .f32 0xBF800000#32 * (Wy : EReal)) + Ideal.ofBits .f32 0x00000000#32 * (Wc : EReal))
    + ((S 0 1 : ℝ) : EReal) * ((Ideal.ofBits .f32 0x00000000#32 * (Wx : EReal) + Ideal.ofBits .f32 0xC0000000#32 * (Wy : EReal)) + Ideal.ofBits .f32 0x00000000#32 * (Wc : EReal))
    + ((S 0 2 : ℝ) : EReal) * ((Ideal.ofBits .f32 0x3F800000#32 * (Wx : EReal) + Ideal.ofBits .f32 0xBF800000#32 * (Wy : EReal)) + Ideal.ofBits .f32 0x00000000#32 * (Wc : EReal))
    + ((S 1 0 : ℝ) : EReal) * ((Ideal.ofBits .f32 0xC0000000#32 * (Wx : EReal) + Ideal.ofBits .f32 0x00000000#32 * (Wy : EReal)) + Ideal.ofBits .f32 0x00000000#32 * (Wc : EReal))
    + ((S 1 1 : ℝ) : EReal) * ((Ideal.ofBits .f32 0x00000000#32 * (Wx : EReal) + Ideal.ofBits .f32 0x00000000#32 * (Wy : EReal)) + Ideal.ofBits .f32 0x3F800000#32 * (Wc : EReal))
    + ((S 1 2 : ℝ) : EReal) * ((Ideal.ofBits .f32 0x40000000#32 * (Wx : EReal) + Ideal.ofBits .f32 0x00000000#32 * (Wy : EReal)) + Ideal.ofBits .f32 0x00000000#32 * (Wc : EReal))
    + ((S 2 0 : ℝ) : EReal) * ((Ideal.ofBits .f32 0xBF800000#32 * (Wx : EReal) + Ideal.ofBits .f32 0x3F800000#32 * (Wy : EReal)) + Ideal.ofBits .f32 0x00000000#32 * (Wc : EReal))
    + ((S 2 1 : ℝ) : EReal) * ((Ideal.ofBits .f32 0x00000000#32 * (Wx : EReal) + Ideal.ofBits .f32 0x40000000#32 * (Wy : EReal)) + Ideal.ofBits .f32 0x00000000#32 * (Wc : EReal))
    + ((S 2 2 : ℝ) : EReal) * ((Ideal.ofBits .f32 0x3F800000#32 * (Wx : EReal) + Ideal.ofBits .f32 0x3F800000#32 * (Wy : EReal)) + Ideal.ofBits .f32 0x00000000#32 * (Wc : EReal))
    = _
  unfold two
  rw [word_one, word_neg_one, word_two, word_neg_two, word_zero]
  have key : S 0 0 * (((-1) * Wx + (-1) * Wy) + 0 * Wc) + S 0 1 * ((0 * Wx + (-2) * Wy) + 0 * Wc)
      + S 0 2 * ((1 * Wx + (-1) * Wy) + 0 * Wc) + S 1 0 * (((-2) * Wx + 0 * Wy) + 0 * Wc)
      + S 1 1 * ((0 * Wx + 0 * Wy) + 1 * Wc) + S 1 2 * ((2 * Wx + 0 * Wy) + 0 * Wc)
      + S 2 0 * (((-1) * Wx + 1 * Wy) + 0 * Wc) + S 2 1 * ((0 * Wx + 2 * Wy) + 0 * Wc)
      + S 2 2 * ((1 * Wx + 1 * Wy) + 0 * Wc)
      = ((S 0 2 - S 0 0) + 2 * (S 1 2 - S 1 0) + (S 2 2 - S 2 0)) * Wx
        + ((S 2 0 - S 0 0) + 2 * (S 2 1 - S 0 1) + (S 2 2 - S 0 2)) * Wy + S 1 1 * Wc := by ring
  exact_mod_cast key

/-! ## The first layer at a pixel -/

/-- The neighbour at offset zero is the position itself. -/
theorem nb_one (h : Fin 256) : nb 1 h = h := by
  apply Fin.ext
  show (h.val + 255 + 1) % 256 = h.val
  have := h.isLt
  omega

theorem perc_lo (x : SX.Idx → EReal) (b : Fin 16) (h w : Fin 256) (c : Fin 16) :
    perc x b h w (Fin.castAdd 16 (Fin.castAdd 16 c)) = sx x b h w c := by
  have hc : (Fin.castAdd 16 (Fin.castAdd 16 c)).val = c.val := rfl
  unfold perc
  rw [dif_pos (by rw [hc]; exact c.isLt)]
  exact congrArg (sx x b h w) (Fin.ext hc)

theorem perc_mid (x : SX.Idx → EReal) (b : Fin 16) (h w : Fin 256) (c : Fin 16) :
    perc x b h w (Fin.castAdd 16 (Fin.natAdd 16 c)) = sy x b h w c := by
  have hc : (Fin.castAdd 16 (Fin.natAdd 16 c)).val = 16 + c.val := rfl
  have := c.isLt
  unfold perc
  rw [dif_neg (by rw [hc]; omega), dif_pos (by rw [hc]; omega)]
  exact congrArg (sy x b h w) (Fin.ext (by show (Fin.castAdd 16 (Fin.natAdd 16 c)).val - 16 = c.val; rw [hc]; omega))

theorem perc_hi (x : SX.Idx → EReal) (b : Fin 16) (h w : Fin 256) (c : Fin 16) :
    perc x b h w (Fin.natAdd (16 + 16) c) = x (ix4 b (nb 1 h) (nb 1 w) c) := by
  have hc : (Fin.natAdd (16 + 16) c).val = 32 + c.val := rfl
  have := c.isLt
  unfold perc
  rw [dif_neg (by rw [hc]; omega), dif_neg (by rw [hc]; omega), nb_one, nb_one]
  exact congrArg (fun q => x (ix4 b h w q)) (Fin.ext (by show (Fin.natAdd (16 + 16) c).val - 32 = c.val; rw [hc]; omega))

/-- Neighbour `t`, channel `c` of a pixel times its folded coefficient into hidden unit `k`. -/
def tapTerm (x' : SX.Idx → ℝ) (wh' : SWh.Idx → ℝ) (b : Fin 16) (h w : Fin 256) (k : Fin 128) (t : Fin 9) (c : Fin 16) : EReal :=
  ((x' (ix4 b (nb ⟨t.val / 3, by omega⟩ h) (nb ⟨t.val % 3, by omega⟩ w) c) : ℝ) : EReal)
    * ((Ideal.ofBits .f32 (cx t) * ((wh' (ix2 k (⟨c.val, by omega⟩ : Fin 48)) : ℝ) : EReal)
        + Ideal.ofBits .f32 (cy t) * ((wh' (ix2 k (⟨16 + c.val, by omega⟩ : Fin 48)) : ℝ) : EReal))
      + Ideal.ofBits .f32 (cc t) * ((wh' (ix2 k (⟨32 + c.val, by omega⟩ : Fin 48)) : ℝ) : EReal))

/-- At a pixel and a hidden unit: the nine raw neighbours times the folded matrix are the perception vector
    times the first-layer matrix, for a finite state and finite first-layer weights. -/
theorem first_layer (x' : SX.Idx → ℝ) (wh' : SWh.Idx → ℝ) (b : Fin 16) (h w : Fin 256) (k : Fin 128) :
    ∑ j : Fin 144, tapv (fun i => ((x' i : ℝ) : EReal)) b h w j * weffAt (fun i => ((wh' i : ℝ) : EReal)) j k
      = ∑ c' : Fin 48, perc (fun i => ((x' i : ℝ) : EReal)) b h w c' * ((wh' (ix2 k c') : ℝ) : EReal) := by
  -- the left side, channel by channel: 144 = 9 neighbours × 16 channels
  have L : ∑ j : Fin 144, tapv (fun i => ((x' i : ℝ) : EReal)) b h w j * weffAt (fun i => ((wh' i : ℝ) : EReal)) j k
      = ∑ c : Fin 16, ∑ t : Fin 9, tapTerm x' wh' b h w k t c := by
    rw [Finset.sum_comm]
    exact sum_split 9 16 (tapTerm x' wh' b h w k)
  -- the right side, channel by channel: 48 = the two Sobel responses and the state, 16 channels each
  have R : ∑ c' : Fin 48, perc (fun i => ((x' i : ℝ) : EReal)) b h w c' * ((wh' (ix2 k c') : ℝ) : EReal)
      = ∑ c : Fin 16, (sx (fun i => ((x' i : ℝ) : EReal)) b h w c * ((wh' (ix2 k (⟨c.val, by omega⟩ : Fin 48)) : ℝ) : EReal)
          + sy (fun i => ((x' i : ℝ) : EReal)) b h w c * ((wh' (ix2 k (⟨16 + c.val, by omega⟩ : Fin 48)) : ℝ) : EReal)
          + ((x' (ix4 b (nb 1 h) (nb 1 w) c) : ℝ) : EReal) * ((wh' (ix2 k (⟨32 + c.val, by omega⟩ : Fin 48)) : ℝ) : EReal)) := by
    show ∑ c' : Fin (16 + 16 + 16), _ = _
    rw [Fin.sum_univ_add, Fin.sum_univ_add, ← Finset.sum_add_distrib, ← Finset.sum_add_distrib]
    refine Finset.sum_congr rfl fun c _ => ?_
    rw [perc_lo, perc_mid, perc_hi]
    rfl
  rw [L, R]
  refine Finset.sum_congr rfl fun c _ => ?_
  exact nine_taps (fun di dj => x' (ix4 b (nb di h) (nb dj w) c)) (wh' (ix2 k (⟨c.val, by omega⟩ : Fin 48)))
    (wh' (ix2 k (⟨16 + c.val, by omega⟩ : Fin 48))) (wh' (ix2 k (⟨32 + c.val, by omega⟩ : Fin 48)))

/-! ## The two forms of the update agree on finite inputs -/

/-- For a finite state and finite first-layer weights the kernel's form of the update (nine neighbours × folded
    matrix) and the reference's (perception vector × first-layer matrix) are the same array. The second layer's
    weights may be anything: they meet the same rectified hidden values on both sides. -/
theorem Gker_eq_Gref (x : SX.Idx → EReal) (wh : SWh.Idx → EReal) (wo : SWo.Idx → EReal)
    (hx : ∀ i, ∃ r : ℝ, x i = (r : EReal)) (hwh : ∀ i, ∃ r : ℝ, wh i = (r : EReal)) :
    Gker x wh wo = Gref x wh wo := by
  choose x' hx' using hx
  choose wh' hwh' using hwh
  obtain rfl : x = fun i => ((x' i : ℝ) : EReal) := funext hx'
  obtain rfl : wh = fun i => ((wh' i : ℝ) : EReal) := funext hwh'
  funext i
  show ∑ k : Fin 128, max (∑ j : Fin 144, tapv (fun i => ((x' i : ℝ) : EReal)) (i 0) (i 1) (i 2) j
          * weffAt (fun i => ((wh' i : ℝ) : EReal)) j k) 0 * wo (ix2 (i 3) k)
      = ∑ k : Fin 128, max (∑ c' : Fin 48, perc (fun i => ((x' i : ℝ) : EReal)) (i 0) (i 1) (i 2) c'
          * ((wh' (ix2 k c') : ℝ) : EReal)) 0 * wo (ix2 (i 3) k)
  refine Finset.sum_congr rfl fun k _ => ?_
  exact congrArg (fun s => max s 0 * wo (ix2 (i 3) k)) (first_layer x' wh' (i 0) (i 1) (i 2) k)

end Cert.Algebra

end
-- ==== Proof.Finite.lean ====
/-
  From the stated precondition to what the algebra uses: every entry of the three argument arrays is a real number.

  The precondition is the conjunction, array by array, of "every |entry| is below the f32 pattern of +infinity". On
  the extended reals that pattern is the top element, and |x| = max x (-x) is below the top exactly when x is
  neither infinity.
-/
import proofs.«110589_j15324443312135_2_alg».proof.Pre_finite_inputs
import proofs.«110589_j15324443312135_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.Affine

noncomputable section

namespace Cert.FiniteInputs

open Idealize.ShloMosaic Idealize.ShloMosaic.ValueIdx Cert.Pre_finite_inputs

instance : Subsingleton S_.Idx := ⟨fun a b => funext fun d => d.elim0⟩

/-- The f32 pattern of +infinity denotes the top extended real. -/
theorem ofBits_inf : Ideal.ofBits .f32 0x7F800000#32 = (⊤ : EReal) := by
  simp [Ideal.ofBits, Ideal.ieee]

/-- An extended real whose absolute value compares below +infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- Under the precondition every entry of each argument array is a real number. -/
theorem real_of_pre (x : FVec Ideal S16x256x256x16 .f32) (wh : FVec Ideal S128x48 .f32) (wo : FVec Ideal S16x128 .f32)
    (h : Cert.Pre_finite_inputs.fn (F := Ideal) x wh wo = fun _ => 1#1) :
    (∀ i, ∃ r : ℝ, x i = (r : EReal)) ∧ (∀ i, ∃ r : ℝ, wh i = (r : EReal)) ∧ (∀ i, ∃ r : ℝ, wo i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt_inf (x i) (Host.reduce_andi_all _ _ _ _ ix0 h0' i)
  · exact real_of_abs_lt_inf (wh i) (Host.reduce_andi_all _ _ _ _ ix0 h1 i)
  · exact real_of_abs_lt_inf (wo i) (Host.reduce_andi_all _ _ _ _ ix0 h2 i)

end Cert.FiniteInputs

end
-- ==== Proof.RefRoll.lean ====
/-
  A circular shift of the 16 × 256 × 256 × 16 state along its rows or its columns, written the way the reference
  writes it: two slices of the array laid end to end in the other order. Read at a pixel it is the state at the
  neighbouring row (column) on the ring of 256.
-/
import proofs.«110589_j15324443312135_2_alg».proof.Proof.Spec
import Idealize.ShloMosaic.Lib.Pipeline.Value

namespace Cert.RefRoll

open Idealize.ShloMosaic Idealize.ShloMosaic.ValueIdx Cert.Spec

variable {α : Type}

/-- Rows `o1 .. o1 + n1` of the array followed by rows `o2 .. o2 + n2` (`n1 + n2 = 256`), read at row `h`:
    row `o1 + h` of the array when `h < n1`, row `o2 + (h - n1)` otherwise. -/
theorem rows_joined (n1 n2 o1 o2 : Nat) (hn : n1 + n2 = 256) (y : SX.Idx → α)
    (hs1 : SX.Slices ![0, o1, 0, 0] ⟨4, ![16, n1, 256, 16]⟩) (hs2 : SX.Slices ![0, o2, 0, 0] ⟨4, ![16, n2, 256, 16]⟩)
    (hc : Shape.Concatenates [(⟨4, ![16, n1, 256, 16]⟩ : Shape), ⟨4, ![16, n2, 256, 16]⟩] SX 1)
    (b : Fin 16) (h w : Fin 256) (c : Fin 16) (h' : Fin 256)
    (hh : h'.val = if h.val < n1 then o1 + h.val else o2 + (h.val - n1)) :
    concatenate SX 1 [⟨⟨4, ![16, n1, 256, 16]⟩, extractStridedSlice ⟨4, ![16, n1, 256, 16]⟩ ![0, o1, 0, 0] y hs1⟩,
        ⟨⟨4, ![16, n2, 256, 16]⟩, extractStridedSlice ⟨4, ![16, n2, 256, 16]⟩ ![0, o2, 0, 0] y hs2⟩] hc (ix4 b h w c)
      = y (ix4 b h' w c) := by
  have hlt := h.isLt
  by_cases h0 : h.val < n1
  · rw [if_pos h0] at hh
    refine (concatenate_pair_apply_left (t := SX) (s₁ := ⟨4, ![16, n1, 256, 16]⟩) (s₂ := ⟨4, ![16, n2, 256, 16]⟩) (1 : Fin 4) _ _ hc (ix4 b h w c) rfl
      (ix4 b (⟨h.val, h0⟩ : Fin n1) w c) ?_).trans ?_
    · intro a
      match a with
      | ⟨0, _⟩ => rfl
      | ⟨1, _⟩ => rfl
      | ⟨2, _⟩ => rfl
      | ⟨3, _⟩ => rfl
    · refine extractStridedSlice_apply _ y hs1 _ _ ?_
      intro a
      match a with
      | ⟨0, _⟩ => show b.val = 0 + b.val; omega
      | ⟨1, _⟩ => show h'.val = o1 + h.val; omega
      | ⟨2, _⟩ => show w.val = 0 + w.val; omega
      | ⟨3, _⟩ => show c.val = 0 + c.val; omega
  · rw [if_neg h0] at hh
    refine (concatenate_pair_apply_right (t := SX) (s₁ := ⟨4, ![16, n1, 256, 16]⟩) (s₂ := ⟨4, ![16, n2, 256, 16]⟩) (1 : Fin 4) _ _ hc (ix4 b h w c) rfl rfl
      (ix4 b (⟨h.val - n1, by omega⟩ : Fin n2) w c) ?_ ?_).trans ?_
    · intro a ha
      match a, ha with
      | ⟨0, _⟩, _ => rfl
      | ⟨1, _⟩, ha => exact absurd rfl ha
      | ⟨2, _⟩, _ => rfl
      | ⟨3, _⟩, _ => rfl
    · show h.val - n1 + n1 = h.val
      omega
    · refine extractStridedSlice_apply _ y hs2 _ _ ?_
      intro a
      match a with
      | ⟨0, _⟩ => show b.val = 0 + b.val; omega
      | ⟨1, _⟩ => show h'.val = o2 + (h.val - n1); omega
      | ⟨2, _⟩ => show w.val = 0 + w.val; omega
      | ⟨3, _⟩ => show c.val = 0 + c.val; omega

/-- The same along the columns. -/
theorem cols_joined (n1 n2 o1 o2 : Nat) (hn : n1 + n2 = 256) (y : SX.Idx → α)
    (hs1 : SX.Slices ![0, 0, o1, 0] ⟨4, ![16, 256, n1, 16]⟩) (hs2 : SX.Slices ![0, 0, o2, 0] ⟨4, ![16, 256, n2, 16]⟩)
    (hc : Shape.Concatenates [(⟨4, ![16, 256, n1, 16]⟩ : Shape), ⟨4, ![16, 256, n2, 16]⟩] SX 2)
    (b : Fin 16) (h w : Fin 256) (c : Fin 16) (w' : Fin 256)
    (hw : w'.val = if w.val < n1 then o1 + w.val else o2 + (w.val - n1)) :
    concatenate SX 2 [⟨⟨4, ![16, 256, n1, 16]⟩, extractStridedSlice ⟨4, ![16, 256, n1, 16]⟩ ![0, 0, o1, 0] y hs1⟩,
        ⟨⟨4, ![16, 256, n2, 16]⟩, extractStridedSlice ⟨4, ![16, 256, n2, 16]⟩ ![0, 0, o2, 0] y hs2⟩] hc (ix4 b h w c)
      = y (ix4 b h w' c) := by
  have hlt := w.isLt
  by_cases h0 : w.val < n1
  · rw [if_pos h0] at hw
    refine (concatenate_pair_apply_left (t := SX) (s₁ := ⟨4, ![16, 256, n1, 16]⟩) (s₂ := ⟨4, ![16, 256, n2, 16]⟩) (2 : Fin 4) _ _ hc (ix4 b h w c) rfl
      (ix4 b h (⟨w.val, h0⟩ : Fin n1) c) ?_).trans ?_
    · intro a
      match a with
      | ⟨0, _⟩ => rfl
      | ⟨1, _⟩ => rfl
      | ⟨2, _⟩ => rfl
      | ⟨3, _⟩ => rfl
    · refine extractStridedSlice_apply _ y hs1 _ _ ?_
      intro a
      match a with
      | ⟨0, _⟩ => show b.val = 0 + b.val; omega
      | ⟨1, _⟩ => show h.val = 0 + h.val; omega
      | ⟨2, _⟩ => show w'.val = o1 + w.val; omega
      | ⟨3, _⟩ => show c.val = 0 + c.val; omega
  · rw [if_neg h0] at hw
    refine (concatenate_pair_apply_right (t := SX) (s₁ := ⟨4, ![16, 256, n1, 16]⟩) (s₂ := ⟨4, ![16, 256, n2, 16]⟩) (2 : Fin 4) _ _ hc (ix4 b h w c) rfl rfl
      (ix4 b h (⟨w.val - n1, by omega⟩ : Fin n2) c) ?_ ?_).trans ?_
    · intro a ha
      match a, ha with
      | ⟨0, _⟩, _ => rfl
      | ⟨1, _⟩, _ => rfl
      | ⟨2, _⟩, ha => exact absurd rfl ha
      | ⟨3, _⟩, _ => rfl
    · show w.val - n1 + n1 = w.val
      omega
    · refine extractStridedSlice_apply _ y hs2 _ _ ?_
      intro a
      match a with
      | ⟨0, _⟩ => show b.val = 0 + b.val; omega
      | ⟨1, _⟩ => show h.val = 0 + h.val; omega
      | ⟨2, _⟩ => show w'.val = o2 + (w.val - n1); omega
      | ⟨3, _⟩ => show c.val = 0 + c.val; omega

/-- The ring neighbour one step back, in the joined form: the last position first. -/
theorem nb_prev (h : Fin 256) : (nb 0 h).val = if h.val < 1 then 255 + h.val else 0 + (h.val - 1) := by
  have := h.isLt
  show (h.val + 255 + 0) % 256 = _
  split <;> omega

/-- The position itself, in the joined form: everything, then nothing. -/
theorem nb_self (h : Fin 256) : (nb 1 h).val = if h.val < 256 then 0 + h.val else 0 + (h.val - 256) := by
  have := h.isLt
  show (h.val + 255 + 1) % 256 = _
  split <;> omega

/-- The ring neighbour one step on, in the joined form: the first position last. -/
theorem nb_next (h : Fin 256) : (nb 2 h).val = if h.val < 255 then 1 + h.val else 0 + (h.val - 255) := by
  have := h.isLt
  show (h.val + 255 + 2) % 256 = _
  split <;> omega

end Cert.RefRoll
-- ==== Proof.RefValue.lean ====
/-
  The reference program's result, read index by index, is the specification's `Gref` of its three arguments.

  The reference shifts the state around the ring twelve times (each shift is two slices laid end to end, first along
  the rows, then along the columns), forms the two Sobel responses from the shifted copies, lays them beside the
  state as 48 channels, and applies the two linear maps with the rectifier between them. Each stage is read at a
  pixel; the shifts become the ring neighbours `nb` of the specification.
-/
import proofs.«110589_j15324443312135_2_alg».proof.Proof.Spec
import proofs.«110589_j15324443312135_2_alg».proof.Proof.RefReadP
import proofs.«110589_j15324443312135_2_alg».proof.Proof.RefRoll

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Spec Cert.RefRoll

/-- The state array's contents at the ideal values. -/
abbrev XT : Type := (⟨S16x256x256x16, .f32⟩ : BufTy).Contents (Elt Ideal)
abbrev WhT : Type := (⟨S128x48, .f32⟩ : BufTy).Contents (Elt Ideal)
abbrev WoT : Type := (⟨S16x128, .f32⟩ : BufTy).Contents (Elt Ideal)

/-! ## The twelve shifted copies of the state -/

theorem v0_at (x : XT) (b : Fin 16) (h w : Fin 256) (c : Fin 16) :
    val_main_v0 (F := Ideal) x (ix4 b h w c) = shifted x 0 2 b h w c := by
  unfold val_main_v0 val_main_call0_v3 val_main_call0_v4
  refine (cols_joined 255 1 1 0 rfl _ _ _ _ b h w c (nb 2 w) (nb_next w)).trans ?_
  unfold val_main_call0_v2 val_main_call0_v0 val_main_call0_v1
  exact rows_joined 1 255 255 0 rfl x _ _ _ b h (nb 2 w) c (nb 0 h) (nb_prev h)

theorem v1_at (x : XT) (b : Fin 16) (h w : Fin 256) (c : Fin 16) :
    val_main_v1 (F := Ideal) x (ix4 b h w c) = shifted x 0 0 b h w c := by
  unfold val_main_v1 val_main_call1_v3 val_main_call1_v4
  refine (cols_joined 1 255 255 0 rfl _ _ _ _ b h w c (nb 0 w) (nb_prev w)).trans ?_
  unfold val_main_call1_v2 val_main_call1_v0 val_main_call1_v1
  exact rows_joined 1 255 255 0 rfl x _ _ _ b h (nb 0 w) c (nb 0 h) (nb_prev h)

theorem v3_at (x : XT) (b : Fin 16) (h w : Fin 256) (c : Fin 16) :
    val_main_v3 (F := Ideal) x (ix4 b h w c) = shifted x 1 2 b h w c := by
  unfold val_main_v3 val_main_call2_v3 val_main_call2_v4
  refine (cols_joined 255 1 1 0 rfl _ _ _ _ b h w c (nb 2 w) (nb_next w)).trans ?_
  unfold val_main_call2_v2 val_main_call2_v0 val_main_call2_v1
  exact rows_joined 256 0 0 0 rfl x _ _ _ b h (nb 2 w) c (nb 1 h) (nb_self h)

theorem v4_at (x : XT) (b : Fin 16) (h w : Fin 256) (c : Fin 16) :
    val_main_v4 (F := Ideal) x (ix4 b h w c) = shifted x 1 0 b h w c := by
  unfold val_main_v4 val_main_call3_v3 val_main_call3_v4
  refine (cols_joined 1 255 255 0 rfl _ _ _ _ b h w c (nb 0 w) (nb_prev w)).trans ?_
  unfold val_main_call3_v2 val_main_call3_v0 val_main_call3_v1
  exact rows_joined 256 0 0 0 rfl x _ _ _ b h (nb 0 w) c (nb 1 h) (nb_self h)

theorem v9_at (x : XT) (b : Fin 16) (h w : Fin 256) (c : Fin 16) :
    val_main_v9 (F := Ideal) x (ix4 b h w c) = shifted x 2 2 b h w c := by
  unfold val_main_v9 val_main_call4_v3 val_main_call4_v4
  refine (cols_joined 255 1 1 0 rfl _ _ _ _ b h w c (nb 2 w) (nb_next w)).trans ?_
  unfold val_main_call4_v2 val_main_call4_v0 val_main_call4_v1
  exact rows_joined 255 1 1 0 rfl x _ _ _ b h (nb 2 w) c (nb 2 h) (nb_next h)

theorem v10_at (x : XT) (b : Fin 16) (h w : Fin 256) (c : Fin 16) :
    val_main_v10 (F := Ideal) x (ix4 b h w c) = shifted x 2 0 b h w c := by
  unfold val_main_v10 val_main_call5_v3 val_main_call5_v4
  refine (cols_joined 1 255 255 0 rfl _ _ _ _ b h w c (nb 0 w) (nb_prev w)).trans ?_
  unfold val_main_call5_v2 val_main_call5_v0 val_main_call5_v1
  exact rows_joined 255 1 1 0 rfl x _ _ _ b h (nb 0 w) c (nb 2 h) (nb_next h)

theorem v13_at (x : XT) (b : Fin 16) (h w : Fin 256) (c : Fin 16) :
    val_main_v13 (F := Ideal) x (ix4 b h w c) = shifted x 2 0 b h w c := by
  unfold val_main_v13 val_main_call6_v3 val_main_call6_v4
  refine (cols_joined 1 255 255 0 rfl _ _ _ _ b h w c (nb 0 w) (nb_prev w)).trans ?_
  unfold val_main_call6_v2 val_main_call6_v0 val_main_call6_v1
  exact rows_joined 255 1 1 0 rfl x _ _ _ b h (nb 0 w) c (nb 2 h) (nb_next h)

theorem v14_at (x : XT) (b : Fin 16) (h w : Fin 256) (c : Fin 16) :
    val_main_v14 (F := Ideal) x (ix4 b h w c) = shifted x 0 0 b h w c := by
  unfold val_main_v14 val_main_call7_v3 val_main_call7_v4
  refine (cols_joined 1 255 255 0 rfl _ _ _ _ b h w c (nb 0 w) (nb_prev w)).trans ?_
  unfold val_main_call7_v2 val_main_call7_v0 val_main_call7_v1
  exact rows_joined 1 255 255 0 rfl x _ _ _ b h (nb 0 w) c (nb 0 h) (nb_prev h)

theorem v16_at (x : XT) (b : Fin 16) (h w : Fin 256) (c : Fin 16) :
    val_main_v16 (F := Ideal) x (ix4 b h w c) = shifted x 2 1 b h w c := by
  unfold val_main_v16 val_main_call8_v3 val_main_call8_v4
  refine (cols_joined 256 0 0 0 rfl _ _ _ _ b h w c (nb 1 w) (nb_self w)).trans ?_
  unfold val_main_call8_v2 val_main_call8_v0 val_main_call8_v1
  exact rows_joined 255 1 1 0 rfl x _ _ _ b h (nb 1 w) c (nb 2 h) (nb_next h)

theorem v17_at (x : XT) (b : Fin 16) (h w : Fin 256) (c : Fin 16) :
    val_main_v17 (F := Ideal) x (ix4 b h w c) = shifted x 0 1 b h w c := by
  unfold val_main_v17 val_main_call9_v3 val_main_call9_v4
  refine (cols_joined 256 0 0 0 rfl _ _ _ _ b h w c (nb 1 w) (nb_self w)).trans ?_
  unfold val_main_call9_v2 val_main_call9_v0 val_main_call9_v1
  exact rows_joined 1 255 255 0 rfl x _ _ _ b h (nb 1 w) c (nb 0 h) (nb_prev h)

theorem v22_at (x : XT) (b : Fin 16) (h w : Fin 256) (c : Fin 16) :
    val_main_v22 (F := Ideal) x (ix4 b h w c) = shifted x 2 2 b h w c := by
  unfold val_main_v22 val_main_call10_v3 val_main_call10_v4
  refine (cols_joined 255 1 1 0 rfl _ _ _ _ b h w c (nb 2 w) (nb_next w)).trans ?_
  unfold val_main_call10_v2 val_main_call10_v0 val_main_call10_v1
  exact rows_joined 255 1 1 0 rfl x _ _ _ b h (nb 2 w) c (nb 2 h) (nb_next h)

theorem v23_at (x : XT) (b : Fin 16) (h w : Fin 256) (c : Fin 16) :
    val_main_v23 (F := Ideal) x (ix4 b h w c) = shifted x 0 2 b h w c := by
  unfold val_main_v23 val_main_call11_v3 val_main_call11_v4
  refine (cols_joined 255 1 1 0 rfl _ _ _ _ b h w c (nb 2 w) (nb_next w)).trans ?_
  unfold val_main_call11_v2 val_main_call11_v0 val_main_call11_v1
  exact rows_joined 1 255 255 0 rfl x _ _ _ b h (nb 2 w) c (nb 0 h) (nb_prev h)

/-! ## The two Sobel responses -/

theorem v12_at (x : XT) (b : Fin 16) (h w : Fin 256) (c : Fin 16) :
    val_main_v12 (F := Ideal) x (ix4 b h w c) = sx x b h w c := by
  rw [val_main_v12_apply, val_main_v8_apply, val_main_v2_apply, val_main_v7_apply, val_main_v5_apply, val_main_v11_apply,
    val_main_v6_apply, val_main_cst_apply, v0_at, v1_at, v3_at, v4_at, v9_at, v10_at]
  rfl

theorem v25_at (x : XT) (b : Fin 16) (h w : Fin 256) (c : Fin 16) :
    val_main_v25 (F := Ideal) x (ix4 b h w c) = sy x b h w c := by
  rw [val_main_v25_apply, val_main_v21_apply, val_main_v15_apply, val_main_v20_apply, val_main_v18_apply, val_main_v24_apply,
    val_main_v19_apply, val_main_cst_0_apply, v13_at, v14_at, v16_at, v17_at, v22_at, v23_at]
  rfl

/-! ## The 48-channel perception vector -/

theorem v26_at (x : XT) (b : Fin 16) (h w : Fin 256) (c' : Fin 48) :
    val_main_v26 (F := Ideal) x (ix4 b h w c') = perc x b h w c' := by
  have hc' := c'.isLt
  unfold val_main_v26 perc
  by_cases h1 : c'.val < 16
  · rw [dif_pos h1, ← v12_at]
    exact concatenate_apply_piece (3 : Fin 4) _ _ (ix4 b h w c') 0 (by simp) S16x256x256x16 _ rfl rfl 0 rfl
      (ix4 b h w (⟨c'.val, h1⟩ : Fin 16))
      (fun a ha => match a, ha with
        | ⟨0, _⟩, _ => rfl
        | ⟨1, _⟩, _ => rfl
        | ⟨2, _⟩, _ => rfl
        | ⟨3, _⟩, ha => absurd rfl ha)
      (by show 0 + c'.val = c'.val; omega)
  · rw [dif_neg h1]
    by_cases h2 : c'.val < 32
    · rw [dif_pos h2, ← v25_at]
      exact concatenate_apply_piece (3 : Fin 4) _ _ (ix4 b h w c') 1 (by simp) S16x256x256x16 _ rfl rfl 16 rfl
        (ix4 b h w (⟨c'.val - 16, by omega⟩ : Fin 16))
        (fun a ha => match a, ha with
          | ⟨0, _⟩, _ => rfl
          | ⟨1, _⟩, _ => rfl
          | ⟨2, _⟩, _ => rfl
          | ⟨3, _⟩, ha => absurd rfl ha)
        (by show 16 + (c'.val - 16) = c'.val; omega)
    · rw [dif_neg h2]
      exact concatenate_apply_piece (3 : Fin 4) _ _ (ix4 b h w c') 2 (by simp) S16x256x256x16 _ rfl rfl 32 rfl
        (ix4 b h w (⟨c'.val - 32, by omega⟩ : Fin 16))
        (fun a ha => match a, ha with
          | ⟨0, _⟩, _ => rfl
          | ⟨1, _⟩, _ => rfl
          | ⟨2, _⟩, _ => rfl
          | ⟨3, _⟩, ha => absurd rfl ha)
        (by show 32 + (c'.val - 32) = c'.val; omega)

/-! ## The two linear maps and the rectifier -/

/-- The reference's result, as the composed stages, is the specification's `Gref`. -/
theorem ref_eq_Gref (x : XT) (wh : WhT) (wo : WoT) :
    val_main_v29 (F := Ideal) x wh wo = Gref x wh wo := by
  funext i
  obtain ⟨b, h, w, c, rfl⟩ : ∃ (b : Fin 16) (h w : Fin 256) (c : Fin 16), i = ix4 b h w c := ⟨i 0, i 1, i 2, i 3, eq_ix4 i⟩
  rw [val_main_v29_apply]
  show _ = ∑ k : Fin 128, max (∑ c' : Fin 48, perc x b h w c' * wh (ix2 k c')) 0 * wo (ix2 c k)
  refine Finset.sum_congr rfl fun k _ => ?_
  have e1 : lidx_main_v29 (ix4 b h w c) k = ix4 b h w k :=
    funext fun a => match a with | ⟨0, _⟩ => rfl | ⟨1, _⟩ => rfl | ⟨2, _⟩ => rfl | ⟨3, _⟩ => rfl
  have e2 : ridx_main_v29 (ix4 b h w c) k = ix2 c k :=
    funext fun a => match a with | ⟨0, _⟩ => rfl | ⟨1, _⟩ => rfl
  rw [e1, e2, val_main_v28_apply, val_main_v27_apply, val_main_call12_v0_apply, val_main_call12_cst_apply]
  show max _ (Ideal.ofBits .f32 0x00000000#32) * _ = _
  rw [Ideal.ofBits_zero_f32]
  refine congrArg (fun s => max s 0 * wo (ix2 c k)) ?_
  refine Finset.sum_congr rfl fun c' _ => ?_
  have e3 : lidx_main_v27 (ix4 b h w k) c' = ix4 b h w c' :=
    funext fun a => match a with | ⟨0, _⟩ => rfl | ⟨1, _⟩ => rfl | ⟨2, _⟩ => rfl | ⟨3, _⟩ => rfl
  have e4 : ridx_main_v27 (ix4 b h w k) c' = ix2 k c' :=
    funext fun a => match a with | ⟨0, _⟩ => rfl | ⟨1, _⟩ => rfl
  rw [e3, e4, v26_at]

end Cert.ReferenceIdeal.RefValue

end
-- ==== Proof.RefRun.lean ====
/-
  The reference program's run: every weakly fair execution ends with the result array at the specification's
  `Gref` of the three argument arrays and the arguments unchanged.
-/
import proofs.«110589_j15324443312135_2_alg».proof.Proof.RefValue
import proofs.«110589_j15324443312135_2_alg».proof.Proof.RefRunP

noncomputable section

namespace Cert.ReferenceIdeal.RefValue

open Cert.ReferenceIdeal Cert.ReferenceIdeal.Gen Cert.ReferenceIdeal.ReadP Idealize.ShloMosaic Idealize.ShloMosaic.TcCoe
open Idealize.SL.Sem Idealize.ShloMosaic.StableHlo

/-- The run's composed term for the result is the last stage of the stage-by-stage reading. -/
theorem res_eq_stage (m : (ℓ : Loc nD τ sig) → Buf (Elt Ideal) ℓ) (c : Dev nD) :
    Cert.ReferenceIdeal.ValueP.res_main_v29 (F := Ideal) m c
      = val_main_v29 (F := Ideal) (m ((c.tc : Thread nD τ).loc main_arg0)) (m ((c.tc : Thread nD τ).loc main_arg1))
          (m ((c.tc : Thread nD τ).loc main_arg2)) := by
  unfold Cert.ReferenceIdeal.ValueP.res_main_v29; rfl

theorem run_Gref (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v29)
            = Cert.Spec.Gref (m ((c.tc : Thread nD τ).loc main_arg0)) (m ((c.tc : Thread nD τ).loc main_arg1))
                (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  (θ_run (Cert.ReferenceIdeal.defs (F := Ideal)) _ _).mono
    (fun _ h c => ⟨(h c).1.trans ((res_eq_stage m c).trans (ref_eq_Gref _ _ _)), (h c).2⟩)
    (Cert.ReferenceIdeal.ValueP.run (F := Ideal) m ρ)

end Cert.ReferenceIdeal.RefValue

end
-- ==== Proof.lean ====
/-
  A neural cellular-automaton step on 16 grids of 256 × 256 pixels with 16 channels, the neighbourhood taken around the
  torus: Sobel perception, a 48 → 128 layer, the rectifier, a 128 → 16 layer.

  The reference forms the two Sobel responses of every channel from shifted copies of the state and multiplies the
  48-channel perception vector by the first-layer weights. The kernel folds the Sobel coefficients into a 144 × 128
  weight table on the host and multiplies the nine raw neighbours, laid side by side, by that table; per grid point
  it stages a block of 32 image rows together with the single rows above and below it, all three read from the one
  state array. The two arrangements agree by distributivity, which on the extended reals needs every entry of the
  state and of the first-layer weights to be a real number: that is what the precondition gives.

  The frames of the two kernel programs are the pipeline's frame run for windows sharing an array; the reference's is
  its run with the result dropped; the idealization rewrote no operation.
-/
import proofs.«110589_j15324443312135_2_alg».proof.Defs
import proofs.«110589_j15324443312135_2_alg».proof.Proof.Gen.Kernel
import proofs.«110589_j15324443312135_2_alg».proof.Proof.Gen.KernelIdeal
import proofs.«110589_j15324443312135_2_alg».proof.Proof.Gen.ReferenceIdeal
import proofs.«110589_j15324443312135_2_alg».proof.Proof.Gen.Pre_finite_inputs
import proofs.«110589_j15324443312135_2_alg».proof.Proof.KernelFrame
import proofs.«110589_j15324443312135_2_alg».proof.Proof.KernelIdealFrame
import proofs.«110589_j15324443312135_2_alg».proof.Proof.KernelRun
import proofs.«110589_j15324443312135_2_alg».proof.Proof.Algebra
import proofs.«110589_j15324443312135_2_alg».proof.Proof.Finite
import proofs.«110589_j15324443312135_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.Hand.frame m ρ

theorem frame_ki : Cert.frame_KernelIdeal := fun m ρ _ => Cert.KernelIdeal.Gen.Hand.frame m ρ

theorem frame_ri : Cert.frame_ReferenceIdeal := fun m ρ _ =>
  (θ_run Cert.ReferenceIdeal.defs _ _).mono (fun _ h c => (h c).2) (Cert.ReferenceIdeal.RefValue.run_Gref m ρ)

/-- The idealization rewrote nothing. -/
theorem preserves : Cert.preserves_Kernel_KernelIdeal := trivial

/-- Both runs end with the result array at the reference's function of the arguments: the kernel's at its own
    arrangement, which is the reference's where every state entry and first-layer weight is real. -/
theorem algebraic : Cert.algebraic_KernelIdeal_ReferenceIdeal := by
  intro m ρ m' ρ' hpre hagree
  refine ⟨fun c => Cert.Spec.Gref (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.KernelIdeal.KerRun.run m ρ)
    obtain ⟨hx, hwh, -⟩ := Cert.FiniteInputs.real_of_pre _ _ _ (hpre c)
    exact Cert.Algebra.Gker_eq_Gref _ _ _ hx hwh
  · refine (θ_run Cert.ReferenceIdeal.defs _ _).mono (fun _ h c => ⟨(h c).1.trans ?_, (h c).2⟩) (Cert.ReferenceIdeal.RefValue.run_Gref m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
